-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S4096x128 : Shape := ⟨2, ![4096, 128]⟩
abbrev S256x128 : Shape := ⟨2, ![256, 128]⟩
abbrev S4096x1 : Shape := ⟨2, ![4096, 1]⟩
abbrev S1x256 : Shape := ⟨2, ![1, 256]⟩
abbrev S4096x256 : Shape := ⟨2, ![4096, 256]⟩
abbrev S4096 : Shape := ⟨1, ![4096]⟩
abbrev S256 : Shape := ⟨1, ![256]⟩
abbrev S256x1 : Shape := ⟨2, ![256, 1]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S256x128, .f32⟩
  | .local _ .vmem, ⟨3, _⟩ => ⟨S256x128, .f32⟩
  | .local _ .vmem, ⟨4, _⟩ => ⟨S4096x1, .i32⟩
  | .local _ .vmem, ⟨5, _⟩ => ⟨S4096x1, .i32⟩
  | .local _ .vmem, ⟨6, _⟩ => ⟨S1x256, .i32⟩
  | .local _ .vmem, ⟨7, _⟩ => ⟨S1x256, .i32⟩
  | .local _ .vmem, ⟨8, _⟩ => ⟨S4096x1, .f32⟩
  | .local _ .vmem, ⟨9, _⟩ => ⟨S4096x1, .f32⟩
  | .local _ .vmem, ⟨10, _⟩ => ⟨S4096x1, .f32⟩
  | .local _ .vmem, ⟨11, _⟩ => ⟨S4096x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v61 : BitVec 1 := Scalar.cmpi .eq arg1 c31_i32
  let v62 : BitVec 32 := Scalar.extui v61
  let c0_i32_25 : BitVec 32 := 0#32
  let v63 : BitVec 1 := Scalar.cmpi .ne v62 c0_i32_25
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x128_S4096x128_0_0 : ∀ a, (![0, 0] : Fin 2 → Nat) a + S4096x128.size a ≤ S4096x128.size a
  h_S4096x128 : 0 < S4096x128.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  reduces_S4096x128_S4096 : S4096x128.Reduces [1] S4096
  shapeCasts_S4096_S4096x1 : S4096.ShapeCasts S4096x1
  reduces_S256x128_S256 : S256x128.Reduces [1] S256
  shapeCasts_S256_S256x1 : S256.ShapeCasts S256x1
  transposes_S256x1_p1_0_S1x256 : S256x1.Transposes [1, 0] S1x256
  broadcasts_S4096x1_S4096x256 : S4096x1.Broadcasts S4096x256
  broadcasts_S1x256_S4096x256 : S1x256.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S4096x1_d0_w32 : S4096x1.Iotas .tc 32 [0]
  iota_S1x256_d1_w32 : S1x256.Iotas .tc 32 [1]
  reduces_S4096x256_S4096 : S4096x256.Reduces [1] S4096
  reducesTo_S8192x1_S_d0_1 : S8192x1.ReducesTo [0, 1] S_
  h_S_ : 0 < S_.numel
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x128.size a
  hwx0_0 : ∀ i : grid0.Coords, EltTy.bits .f32 = 32 ∨ (Rect.block (s := S8192x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8192x1.size a
  hwx0_2 : ∀ i : grid0.Coords, EltTy.bits .i32 = 32 ∨ (Rect.block (s := S8192x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S8192x1.size a
  hwx0_4 : ∀ i : grid0.Coords, EltTy.bits .f32 = 32 ∨ (Rect.block (s := S8192x1) S4096x1.size (cc0_transform_4 i) (hinb0_4 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_call3_v0 : Ref sig .tc := ⟨.hbm, 55, rfl⟩
abbrev main_call3_v1 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_cst_13 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Entry.lean ====
/-
  What the kernel region is entered with, and the names the rest of the proof is stated over: the buffer contents after
  the two reshapes of the labels that precede the region, each window's block of its array at a grid point, the shares
  at which the windows hold their arrays (windows 0 and 1 read the SAME array, the embeddings, so each holds it at one
  half), the staging and scratch memrefs as the pipeline passes them to the body, and the body's two conditions on the
  grid point in closed form (the column-tile index is 0; it is 31).
-/
import proofs.«151648_j33449205301316_2_alg».proof.Proof.Gen.Kernel.Launch
import proofs.«151648_j33449205301316_2_alg».proof.Proof.Gen.Kernel.Skeleton
import proofs.«151648_j33449205301316_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffer contents when the region is entered: the launch memory after the two reshapes of the labels. -/
abbrev W1 (c : Dev nD) : Valuation τ sig (Elt F) := StableHlo.after hostOps0 (fun b => m (c, b))
/-- The same read at a TensorCore reference. -/
abbrev V (c : Dev nD) (b : Ref sig .tc) : Buf (Elt F) ((c : Thread nD τ).loc b) := W1 m c (Proc.devRef .tc b)

/-- The share at which each input window holds its array: windows 0 and 1 both read the embeddings, one half each. -/
def qShare : Fin 5 → PosShare TreeShare
  | ⟨0, _⟩ => fullShare.left
  | ⟨1, _⟩ => fullShare.right
  | _ => fullShare

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .f32 := win0_4.stage (cfg0.slots t 4)
abbrev hs0_4 (t : Fin cfg0.N) : (ms0_4 t).IsWhole := hstage0_4 ((cfg0.slots t 4).cast nbuf0_4)
/-- The two scratch operands (the running least and greatest squared distances), whole buffers of the kernel's own. -/
abbrev scM0_0 : Memref sig .tc .vmem S4096x1 .f32 := Memref.whole cc0_scratch0
abbrev scM0_1 : Memref sig .tc .vmem S4096x1 .f32 := Memref.whole cc0_scratch1
/-- Views through which the contents of the output's staging buffer and of the two scratch buffers are stated. -/
abbrev VO0_4 : View sig .tc .vmem S4096x1 .f32 := (Memref.whole cc0_stg4_0 : Memref sig .tc .vmem S4096x1 .f32).view
abbrev VS0_0 : View sig .tc .vmem S4096x1 .f32 := scM0_0.view
abbrev VS0_1 : View sig .tc .vmem S4096x1 .f32 := scM0_1.view

/-- The body's first condition (reset the running extrema): the column-tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- The body's second condition (write the row losses): the column-tile index is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- A point's coordinates: the row block is `t / 32`, the column tile `t % 32`. -/
theorem coords_0 : ∀ t : Fin cfg0.N, ((grid0.coords t) 0).val = t.val / 32 :=
  (by decide +kernel : ∀ t : Fin grid0.N, ((grid0.coords t) 0).val = t.val / 32)
theorem coords_1 : ∀ t : Fin cfg0.N, ((grid0.coords t) 1).val = t.val % 32 :=
  (by decide +kernel : ∀ t : Fin grid0.N, ((grid0.coords t) 1).val = t.val % 32)

/-- The region's invariant as the launch hands it over: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.Region.lean ====
/-
  The launch: the run of @main from any proof data for its one kernel region. @main is two reshapes of the labels,
  the region, then four host operations (a constant, the sum of the row losses, a constant, the quotient). The buffer
  contents at each boundary are a fold from the launch memory; the region is entered with every unscoped buffer at the
  contents the reshapes leave and left with the output array at what the write-backs leave, every other buffer as
  entered.

  Windows 0 and 1 read the SAME array (the embeddings), so each holds it at one half of the full share: at the
  region's entry the array's full points-to is dealt into its two halves, and at the exit the halves — which hold the
  same contents, an input array never being written — are joined back.
-/
import proofs.«151648_j33449205301316_2_alg».proof.Proof.Kernel.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

namespace Region

section Data

variable (dat : (c : Dev nD) → Dat τ (Elt F) Unit ℕ (UR sig nD τ) ℕ cfg0 c)

/-! ## The buffer contents at each segment boundary -/

/-- Core `c`'s buffers at launch. -/
abbrev W0 (c : Dev nD) : Valuation τ sig (Elt F) := fun b => m (c, b)

/-- At the region's exit: the output array at what the write-backs leave, every other buffer as the region was
    entered (the inputs are never written). -/
def W2 (c : Dev nD) : Valuation τ sig (Elt F) :=
  Function.update (W1 m c) (Proc.devRef .tc main_v2) ((dat c).arrAt 4 cfg0.N)

theorem W2_out (c : Dev nD) : W2 m dat c (Proc.devRef .tc main_v2) = (dat c).arrAt 4 cfg0.N := by
  unfold W2; exact Function.update_self ..

theorem W2_of_ne (c : Dev nD) (b : Ref sig .tc) (hb : b ≠ main_v2) :
    W2 m dat c (Proc.devRef .tc b) = W1 m c (Proc.devRef .tc b) := by
  unfold W2; exact Function.update_of_ne (StableHlo.devRef_ne_of_ne hb) ..

/-- The same read at a TensorCore reference. -/
abbrev V2 (c : Dev nD) (b : Ref sig .tc) : Buf (Elt F) ((c : Thread nD τ).loc b) := W2 m dat c (Proc.devRef .tc b)

/-- At the return: the four host operations after the region have run. -/
abbrev W3 (c : Dev nD) : Valuation τ sig (Elt F) := StableHlo.after hostOps1 (W2 m dat c)

/-! ## The proof data family and the thread state -/

/-- The prefetched tables' admissible contents: the pipeline has no table. -/
abbrev adm : (p : Fin 1) → (pcfgs (F := F) p).Adm := fun p => (cfgs p).toPCfg_adm
/-- Every pipeline's proof data, by cases on the pipeline: there is one. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers after the region: the generator register at some state (the region's invariant
    takes it in and gives it back) and the core owing nothing, its recorded waits whatever they are. -/
abbrev R (c : Dev nD) : sProp 𝕄 := iprop((∃ r, prngReg c r) ∗ ∃ W, owes (c : Thread nD τ) (0 : CellTallies nD τ sig Unit) W)
/-- The same up to the region: the core's recorded waits are still none, as the launch deals them (the region's
    entry needs them within the proof data's bound, whatever that is). -/
abbrev R₀ (c : Dev nD) : sProp 𝕄 := iprop((∃ r, prngReg c r) ∗ owes (c : Thread nD τ) (0 : CellTallies nD τ sig Unit) ∅)
/-- A stretch of host operations as a segment: over the unscoped references from the contents `W`, `Rc` riding along;
    it leaves those references at `StableHlo.after ops (W c)`. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) (Rc : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W Rc

/-- No host operation of @main allocates. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at
    some state. -/
abbrev Tₙ (c : Dev nD) : sProp 𝕄 := iprop(StableHlo.held (c : Thread nD τ) (Pipeline.ucRefs τ sig) (W3 m dat c) ∗ ∃ r, prngReg c r)

/-! ## The windows' arrays, one by one

The five windows stand on FOUR buffers: windows 0 and 1 both on the embeddings. -/

/-- The distinct buffers behind the windows' arrays, each whole at the full share at contents `A`, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_arg0) ↦{fullShare} A main_arg0) ∗ (((c : Thread nD τ).loc main_v0) ↦{fullShare} A main_v0)
          ∗ (((c : Thread nD τ).loc main_v1) ↦{fullShare} A main_v1) ∗ (((c : Thread nD τ).loc main_v2) ↦{fullShare} A main_v2)) := by
  unfold Pipeline.arrBufs
  exact bigSep_eq_bigSepL_of_eq [main_arg0, main_v0, main_v1, main_v2] (by decide) (by decide) _

/-- The shares the windows hold their arrays at: the two windows on the embeddings one half each, the labels' two
    windows and the output the whole. -/
theorem share_0 (hq : ∀ c w, (dat c).q w = qShare w) (c : Dev nD) : (dat c).share 0 = fullShare.left :=
  (show (dat c).share 0 = (dat c).q 0 from rfl).trans (hq c 0)
theorem share_1 (hq : ∀ c w, (dat c).q w = qShare w) (c : Dev nD) : (dat c).share 1 = fullShare.right :=
  (show (dat c).share 1 = (dat c).q 1 from rfl).trans (hq c 1)
theorem share_2 (hq : ∀ c w, (dat c).q w = qShare w) (c : Dev nD) : (dat c).share 2 = fullShare :=
  (show (dat c).share 2 = (dat c).q 2 from rfl).trans (hq c 2)
theorem share_3 (hq : ∀ c w, (dat c).q w = qShare w) (c : Dev nD) : (dat c).share 3 = fullShare :=
  (show (dat c).share 3 = (dat c).q 3 from rfl).trans (hq c 3)
theorem share_4 (c : Dev nD) : (dat c).share 4 = fullShare := rfl

/-- The windowed arrays at contents `G`, window by window: every array a whole buffer, held at its window's share. -/
theorem arrays0_eq (hq : ∀ c w, (dat c).q w = qShare w) (c : Dev nD)
    (G : (w : Fin cfg0.W) → Buf (Elt F) ((cfg0.win w).arr.view.loc (c : Thread nD τ))) :
    ((dat c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, (arr_whole0 0).set_eq_univ, (arr_whole0 2).set_eq_univ, (arr_whole0 3).set_eq_univ,
    (arr_whole0 4).set_eq_univ, share_0 dat hq, share_1 dat hq, share_2 dat hq, share_3 dat hq, share_4 dat]

/-- THE SHARED ARRAY. The windows' arrays at contents read off one valuation `A` of the buffers ARE the four buffers
    behind them, each whole at `A`: the embeddings' full points-to is its left half (window 0's) beside its right half
    (window 1's), both at the same contents; the other three windows hold their arrays whole. -/
theorem arrays_iff_arrBufs (hq : ∀ c w, (dat c).q w = qShare w) (c : Dev nD)
    (A : (b : Ref sig .tc) → Buf (Elt F) ((c : Thread nD τ).loc b)) :
    ((dat c).arrays (fun w => A (Pipeline.arrRef spec0 w)) : sProp 𝕄)
      ⊣⊢ (Pipeline.arrBufs (Ix := Unit) (Name := ℕ) (U := UR sig nD τ) (Lvl := ℕ) spec0 c A : sProp 𝕄) := by
  rw [arrays0_eq dat hq c, arrBufs0_eq]
  have hs : ((((c : Thread nD τ).loc main_arg0) ↦{fullShare} A main_arg0 : sProp 𝕄))
      ⊣⊢ iprop((((c : Thread nD τ).loc main_arg0) ↦{fullShare.left} A main_arg0) ∗ (((c : Thread nD τ).loc main_arg0) ↦{fullShare.right} A main_arg0)) :=
    pointsTo_share (PosShare.mem_left_op_right fullShare)
  constructor
  · iintro ⟨HaL, HaR, Hv0, Hv1, Hv2⟩
    isplitl [HaL HaR]
    · iapply hs.2
      isplitl [HaL]; · iexact HaL
      iexact HaR
    isplitl [Hv0]; · iexact Hv0
    isplitl [Hv1]; · iexact Hv1
    iexact Hv2
  · iintro ⟨Ha, Hv0, Hv1, Hv2⟩
    ihave Hs := hs.1 $$ Ha
    icases Hs with ⟨HaL, HaR⟩
    isplitl [HaL]; · iexact HaL
    isplitl [HaR]; · iexact HaR
    isplitl [Hv0]; · iexact Hv0
    isplitl [Hv1]; · iexact Hv1
    iexact Hv2

/-- The thread state's buffers at a valuation `W` are the four buffers behind the windows' arrays and the rest. -/
theorem held_split (c : Dev nD) (W : Valuation τ sig (Elt F)) :
    (StableHlo.held (c : Thread nD τ) (Pipeline.ucRefs τ sig) W : sProp 𝕄)
      = iprop((Pipeline.arrBufs (Ix := Unit) (Name := ℕ) (U := UR sig nD τ) (Lvl := ℕ) spec0 c (fun b => W (Proc.devRef .tc b)) : sProp 𝕄)
          ∗ Pipeline.unscopedRest (Ix := Unit) (Name := ℕ) (U := UR sig nD τ) (Lvl := ℕ) spec0 c (fun b => W (Proc.devRef .tc b))) :=
  (Pipeline.unscopedBufs_held c W).symm.trans (Pipeline.unscopedBufs_split₀ cfgs 0 winFacts₀0.arr_unscoped c _)

/-- ENTRY, the arrays' part: every unscoped buffer at the entry contents is the windows' arrays at the proof data's
    entry contents — each read off the entry contents — and the buffers that bypass the region. -/
theorem entry_arrays (hA : ∀ c w, (dat c).A w = V m c (Pipeline.arrRef spec0 w)) (hq : ∀ c w, (dat c).q w = qShare w) (c : Dev nD) :
    (StableHlo.held (c : Thread nD τ) (Pipeline.ucRefs τ sig) (W1 m c) : sProp 𝕄)
      ⊢ iprop((dat c).arrays ((dat c).arrAt · 0)
          ∗ Pipeline.unscopedRest (Ix := Unit) (Name := ℕ) (U := UR sig nD τ) (Lvl := ℕ) spec0 c (V m c)) := by
  rw [held_split, show ((dat c).arrAt · 0) = (fun w => V m c (Pipeline.arrRef spec0 w)) from funext fun w => hA c w]
  exact sep_mono (arrays_iff_arrBufs dat hq c (V m c)).2 .rfl

/-- Every array at the region's exit holds what the exit contents say: an input as entered, the output what the
    write-backs leave. -/
theorem exit_contents (hA : ∀ c w, (dat c).A w = V m c (Pipeline.arrRef spec0 w)) (c : Dev nD) :
    ∀ w, (dat c).arrAt w cfg0.N = V2 m dat c (Pipeline.arrRef spec0 w)
  | 0 => ((dat c).arrAt_in 0 rfl _).trans ((hA c 0).trans (W2_of_ne m dat c main_arg0 (by decide)).symm)
  | 1 => ((dat c).arrAt_in 1 rfl _).trans ((hA c 1).trans (W2_of_ne m dat c main_arg0 (by decide)).symm)
  | 2 => ((dat c).arrAt_in 2 rfl _).trans ((hA c 2).trans (W2_of_ne m dat c main_v0 (by decide)).symm)
  | 3 => ((dat c).arrAt_in 3 rfl _).trans ((hA c 3).trans (W2_of_ne m dat c main_v1 (by decide)).symm)
  | 4 => (W2_out m dat c).symm
  | ⟨_ + 5, h⟩ => absurd h (Nat.not_lt.2 (Nat.le_add_left _ _))

/-- EXIT, the arrays' part: the windows' arrays at their final contents and the buffers that bypassed the region are
    every unscoped buffer at the exit contents. -/
theorem exit_arrays (hA : ∀ c w, (dat c).A w = V m c (Pipeline.arrRef spec0 w)) (hq : ∀ c w, (dat c).q w = qShare w) (c : Dev nD) :
    iprop((dat c).arrays ((dat c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m dat c) : sProp 𝕄) := by
  have hrest : (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (V2 m dat c) := by
    unfold Pipeline.unscopedRest
    exact bigSep_congr fun b hb => by
      rw [show V2 m dat c b = V m c b from W2_of_ne m dat c b fun e =>
        (Finset.mem_sdiff.mp hb).2 (e ▸ Finset.mem_image.mpr ⟨4, Finset.mem_univ _, rfl⟩)]
  rw [held_split, hrest, show ((dat c).arrAt · cfg0.N) = (fun w => V2 m dat c (Pipeline.arrRef spec0 w)) from funext (exit_contents m dat hA c)]
  exact sep_mono (arrays_iff_arrBufs dat hq c (V2 m dat c)).1 .rfl

/-! ## The region as a segment -/

set_option backward.isDefEq.respectTransparency.types false in
/-- THE REGION over the thread state: entered from every unscoped buffer at `W1`, left at `W2`. -/
def reg0 (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W1 m c) ∗ R₀ c)
  post c := iprop(StableHlo.held (c : Thread nD τ) (Pipeline.ucRefs τ sig) (W2 m dat c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit : (StableHlo.held (c : Thread nD τ) (Pipeline.ucRefs τ sig) (W1 m c) : sProp 𝕄)
        ⊢ iprop((pdats dat 0 c).arrays ((pdats dat 0 c).arrAt · 0)
            ∗ Pipeline.unscopedRest (Ix := Unit) (Name := ℕ) (U := UR sig nD τ) (Lvl := ℕ) spec0 c (V m c)) := entry_arrays m dat hA hq c
    have ho : ∀ t, (pdats dat 0 c).owed t = 0 := howed c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      iexists ∅; isplitr; · ipureintro; rw [Finset.coe_empty]; exact Set.empty_subset _
      iexact HO
    isplitl [Hp]; · iexact Hp
    iexact Hrest
  hin c := by
    refine (show _ ⊢ (Pipeline.ΦA spec0 c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · cfg0.N)
          ∗ Pipeline.unscopedRest (Ix := Unit) (Name := ℕ) (U := UR sig nD τ) (Lvl := ℕ) spec0 c (V m c))
        ⊢ (StableHlo.held (c : Thread nD τ) (Pipeline.ucRefs τ sig) (W2 m dat c) : sProp 𝕄) := exit_arrays m dat hA hq c
    have ho : ∀ t, (pdats dat 0 c).owed t = 0 := howed c
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## @main as segments, and the launch -/

/-- @main's three segments in order: the two reshapes from the launch memory, the region, the four operations that
    take the mean. -/
abbrev segs (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    List (Pipeline.Seg (pcfgs (F := F)) adm (pdats dat) () defs₀ 𝒱₀ L lv) :=
  [ .host (hseg hostOps0 hostOps0_sub hostOps0_fresh (W0 m) R₀),
    .region (reg0 m dat hA hq howed hbody hin hout),
    .host (hseg hostOps1 hostOps1_sub hostOps1_fresh (W2 m dat) R) ]

/-- @main IS the run of the segments. -/
theorem main_run (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) (c : Dev nD) :
    main (F := F) c = Pipeline.Seg.run (segs m dat hA hq howed hbody hin hout) := (main_chain c).trans (by chain_rfl)

/-! ### What the return's contents are -/

/-- The result is the mean of the output array: the four host operations read off the region's exit contents. -/
theorem W3_main_v4 (c : Dev nD) :
    W3 m dat c (Proc.devRef .tc main_v4)
      = Host.divf (Host.reduceAdd ((dat c).arrAt 4 cfg0.N) (constant S_ .f32 0x00000000#32) reducesTo_S8192x1_S_d0_1 h_S_) (constant S_ .f32 0x46000000#32) := by
  show StableHlo.after hostOps1 _ (Proc.devRef .tc main_v4) = _
  after_results
  rw [W2_out]

/-- The embeddings end as launched: no host operation writes them and the region only reads them. -/
theorem W3_main_arg0 (c : Dev nD) : W3 m dat c (Proc.devRef .tc main_arg0) = m ((c : Thread nD τ).loc main_arg0) := by
  show StableHlo.after hostOps1 _ (Proc.devRef .tc main_arg0) = _
  after_results
  rw [W2_of_ne m dat c main_arg0 (by decide)]
  show StableHlo.after hostOps0 _ (Proc.devRef .tc main_arg0) = _
  after_results
/-- The labels end as launched. -/
theorem W3_main_arg1 (c : Dev nD) : W3 m dat c (Proc.devRef .tc main_arg1) = m ((c : Thread nD τ).loc main_arg1) := by
  show StableHlo.after hostOps1 _ (Proc.devRef .tc main_arg1) = _
  after_results
  rw [W2_of_ne m dat c main_arg1 (by decide)]
  show StableHlo.after hostOps0 _ (Proc.devRef .tc main_arg1) = _
  after_results

end Data

end Region

open Region in
set_option backward.isDefEq.respectTransparency.types false in
/-- THE LAUNCH: from any memory with zero counters, every weakly fair execution of @main on the TensorCores terminates,
    and every final state has the result at the mean of the output array the region leaves and the two arguments as
    launched — from any proof data for the region whose arrays are read off the entry contents, whose two windows on the
    embeddings hold one half each, and whose invariant is the launch's at both ends. -/
theorem run_of (ρ : Dev nD → PrngReg)
    (dat : (c : Dev nD) → Dat τ (Elt F) Unit ℕ (UR sig nD τ) ℕ cfg0 c)
    (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_v4) = Host.divf (Host.reduceAdd ((dat c).arrAt 4 cfg0.N) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat) () cellOf_inj emb₁ defs₀ 𝒱₀ L lv m ρ main
    (segs m dat hA hq howed hbody hin hout)
    (fun c Q => by rw [main_run m dat hA hq howed hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m dat)
    (hch := ⟨fun _ => .rfl, fun _ => .rfl, fun _ => .rfl, fun c => by
      show iprop(StableHlo.held (c : Thread nD τ) (Pipeline.ucRefs τ sig) (W3 m dat c) ∗ R c)
        ⊢ iprop(Tₙ m dat c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W3 m dat c b)
    (hfin := fun c s' => by
      iintro ⟨⟨Hh, -⟩, HSI⟩
      unfold StableHlo.held
      imodintro
      iapply (pointsTo_read_all (Pipeline.ucRefs τ sig) (fun b => (((c : Thread nD τ)).1, b)) (W3 m dat c) s')
      isplitl [Hh] <;> iassumption)
    (hQ := fun s h c =>
      ⟨(h c _ (mem_uc main_v4 (by decide))).trans (W3_main_v4 m dat c),
       (h c _ (mem_uc main_arg0 (by decide))).trans (W3_main_arg0 m dat c),
       (h c _ (mem_uc main_arg1 (by decide))).trans (W3_main_arg1 m dat c)⟩)

end Cert.Kernel.Hand

end
-- ==== Proof.Kernel.RunA.lean ====
/-
  The body at a point whose column tile is the FIRST of its row block (tile index 0, not 31): it resets the two running
  extrema (the least squared distance to a positive to ⊤, the greatest to a negative to ⊥), then folds this tile's
  candidates into them. The output window's buffer is not touched. Stated on any whole staging memrefs holding the
  four input blocks; what the two scratch buffers end with is found as the list of the body's stores.
-/
import proofs.«151648_j33449205301316_2_alg».proof.Proof.Kernel.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the two scratch buffers (last first) at a first column tile, with the run: from the
    inputs' buffers at their blocks, the output's buffer at any contents `xi4` (handed back untouched) and the scratch
    buffers at anything, the body reaches its end holding the inputs as they were and each scratch with its stores written. -/
noncomputable def kernelRun0_A (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) :
    Σ' (LS0 : List (View.Piece (Elt F) S4096x1 .f32)), { LS1 : List (View.Piece (Elt F) S4096x1 .f32) //
      ∀ (xi4 : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.Kernel.RunB.lean ====
/-
  The body at a point whose column tile is neither the first nor the last of its row block (tile index 1 … 30): it
  folds this tile's candidates into the two running extrema, which the point before left in the scratch buffers. The
  output window's buffer is not touched.
-/
import proofs.«151648_j33449205301316_2_alg».proof.Proof.Kernel.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the two scratch buffers at a middle column tile, with the run: from the inputs'
    buffers at their blocks, the output's buffer at any contents `xi4` (handed back untouched) and the scratch buffers at
    the running extrema `xs0`, `xs1`, the body reaches its end holding the inputs as they were and each scratch with its
    store written. -/
noncomputable def kernelRun0_B (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) :
    Σ' (LS0 : List (View.Piece (Elt F) S4096x1 .f32)), { LS1 : List (View.Piece (Elt F) S4096x1 .f32) //
      ∀ (xi4 : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.Kernel.RunC.lean ====
/-
  The body at a point whose column tile is the LAST of its row block (tile index 31): it folds this tile's candidates
  into the two running extrema, then writes the row losses computed from the finished extrema into the output window's
  buffer.
-/
import proofs.«151648_j33449205301316_2_alg».proof.Proof.Kernel.Entry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the output's buffer and in the two scratch buffers at a last column tile, with the
    run: from the inputs' buffers at their blocks, the output's buffer at anything and the scratch buffers at the running
    extrema `xs0`, `xs1`, the body reaches its end holding the inputs as they were and the output's buffer and each
    scratch with its store written. -/
noncomputable def kernelRun0_C (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) :
    Σ' (L4 : List (View.Piece (Elt F) S4096x1 .f32)) (LS0 : List (View.Piece (Elt F) S4096x1 .f32)), { LS1 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.Kernel.Body.lean ====
/-
  The body obligation of the kernel region, and the region's proof data.

  What each of the three kinds of point leaves in the two scratch buffers (and, at a last column tile, in the output
  window's buffer) is read back from the stores its run found; `outsAt0` follows these contents point by point through the
  grid — a first column tile starts the running extrema afresh, every other tile continues from what the point before
  left —; the invariant between points holds the two scratch buffers at those contents; and the body obligation at a
  point is that point's run, chosen by the closed forms of the two conditions.
-/
import proofs.«151648_j33449205301316_2_alg».proof.Proof.Kernel.RunA
import proofs.«151648_j33449205301316_2_alg».proof.Proof.Kernel.RunB
import proofs.«151648_j33449205301316_2_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a last column tile the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a last column tile it is live. -/
theorem liveAt0_4 : ∀ t : Fin cfg0.N, cond0_1 (grid0.coords t) → cfg0.idle 4 (grid0.coords t) = false := by decide +kernel

/-! ## What each kind of point leaves -/

/-- The contents stated for the output window's buffer at a point that does not store into it (never consulted: the
    window is idle there and not written back). -/
def outIdle : Vec F S4096x1 .f32 := VO0_4.read (Elt F) (VO0_4.writes (Elt F) VO0_4.junk [])

/-- The stores of a point of kind A into scratch 0 cover it. -/
theorem scover0_A_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) (y : S4096x1.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S4096x1.size (by sl_kernel_rfl) y

/-- What a point of kind A leaves in scratch 0: its stores read back. -/
def sout0_A_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) : Vec F S4096x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

/-- The stores of a point of kind A into scratch 1 cover it. -/
theorem scover0_A_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) (y : S4096x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S4096x1.size (by sl_kernel_rfl) y

/-- What a point of kind A leaves in scratch 1: its stores read back. -/
def sout0_A_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) : Vec F S4096x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)

/-- The stores of a point of kind B into scratch 0 cover it. -/
theorem scover0_B_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S4096x1.size (by sl_kernel_rfl) y

/-- What a point of kind B leaves in scratch 0: its stores read back. -/
def sout0_B_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).1)

/-- The stores of a point of kind B into scratch 1 cover it. -/
theorem scover0_B_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S4096x1.size (by sl_kernel_rfl) y

/-- What a point of kind B leaves in scratch 1: its stores read back. -/
def sout0_B_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.1)

/-- The stores of a point of kind C into scratch 0 cover it. -/
theorem scover0_C_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S4096x1.size (by sl_kernel_rfl) y

/-- What a point of kind C leaves in scratch 0: its stores read back. -/
def sout0_C_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- The stores of a point of kind C into scratch 1 cover it. -/
theorem scover0_C_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S4096x1.size (by sl_kernel_rfl) y

/-- What a point of kind C leaves in scratch 1: its stores read back. -/
def sout0_C_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-- The store of a last column tile into the output window's buffer covers it. -/
theorem cover0_C_4 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S4096x1.size (by sl_kernel_rfl) y

/-- What a last column tile leaves in the output window's buffer: its store read back. -/
def out0_C_4 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-! ## Point by point -/

/-- What the output window's buffer and the two scratch buffers hold after the body at position `n`: at a first column
    tile the reset-and-fold of that tile's blocks; at any other tile the fold of its blocks into what position `n - 1` left
    in the scratch buffers; at a last column tile also the row losses in the output window's buffer. -/
def outsAt0 (c : Dev nD) : (n : ℕ) → n < cfg0.N → Vec F S4096x1 .f32 × Vec F S4096x1 .f32 × Vec F S4096x1 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) (h1 : ¬t.val % 32 = 31) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over (both scratch buffers at anything); after point `n` the two
    scratch buffers at what that point left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; the two windows on the embeddings at one half
    of that array each; nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = (outsAt0 m c t.val t.isLt).1 := by dsimp only [dats]

/-- Input window 0's current staging buffer holds its block at every point, fetched there or not. -/
theorem before0_0 (c : Dev nD) (t : Fin cfg0.N) (d) : (dats m c).before 0 t d = iblk m c 0 t :=
  ((dats m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before0_1 (c : Dev nD) (t : Fin cfg0.N) (d) : (dats m c).before 1 t d = iblk m c 1 t :=
  ((dats m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before0_2 (c : Dev nD) (t : Fin cfg0.N) (d) : (dats m c).before 2 t d = iblk m c 2 t :=
  ((dats m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before0_3 (c : Dev nD) (t : Fin cfg0.N) (d) : (dats m c).before 3 t d = iblk m c 3 t :=
  ((dats m c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t)

set_option maxHeartbeats 8000000 in
/-- The body at any point: the inputs' buffers hold their blocks; the closed forms of the two conditions say which kind
    of point it is, so that kind's run applies; the invariant hands the body the two scratch buffers at what the point
    before left (at anything at a first column tile) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 64 := lt_of_lt_of_eq t.isLt (show cfg0.N = 64 from N_0)
  rw [show (dats m c).leavesExact 0 t = owns (c : Thread nD τ) (ms0_0 t) fullShare ((dats m c).after 0 t) from by
    unfold Dat.leavesExact; rw [liveAt0_0 t], after0_0]
  rw [show (dats m c).leavesExact 1 t = owns (c : Thread nD τ) (ms0_1 t) fullShare ((dats m c).after 1 t) from by
    unfold Dat.leavesExact; rw [liveAt0_1 t], after0_1]
  rw [show (dats m c).leavesExact 2 t = owns (c : Thread nD τ) (ms0_2 t) fullShare ((dats m c).after 2 t) from by
    unfold Dat.leavesExact; rw [liveAt0_2 t], after0_2]
  rw [show (dats m c).leavesExact 3 t = owns (c : Thread nD τ) (ms0_3 t) fullShare ((dats m c).after 3 t) from by
    unfold Dat.leavesExact; rw [liveAt0_3 t], after0_3]
  by_cases h0 : t.val % 32 = 0
  · by_cases h1 : t.val % 32 = 31
    · exfalso; omega
    · rw [Dat.leavesExact_idle (dats m c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
  · by_cases h1 : t.val % 32 = 31
    · rw [show (dats m c).leavesExact 4 t = owns (c : Thread nD τ) (ms0_4 t) fullShare ((dats m c).after 4 t) from by
        unfold Dat.leavesExact; rw [liveAt0_4 t ((hcond0_1 t).mpr h1)], after0_4]
      rw [outsAt0_C m c t h0 h1]
      unfold out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
    · rw [Dat.leavesExact_idle (dats m c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m c).Φ (Fin.last cfg0.N) ⊢ Pipeline.ΦA spec0 c :=
  Phi_out m c _ (by rw [Fin.val_last]; have : cfg0.N = 64 := N_0; omega)

end Cert.Kernel.Hand

end
-- ==== Proof.KernelIdeal.Entry.lean ====
/-
  What the kernel region is entered with, and the names the rest of the proof is stated over: the buffer contents after
  the two reshapes of the labels that precede the region, each window's block of its array at a grid point, the shares
  at which the windows hold their arrays (windows 0 and 1 read the SAME array, the embeddings, so each holds it at one
  half), the staging and scratch memrefs as the pipeline passes them to the body, and the body's two conditions on the
  grid point in closed form (the column-tile index is 0; it is 31).
-/
import proofs.«151648_j33449205301316_2_alg».proof.Proof.Gen.KernelIdeal.Launch
import proofs.«151648_j33449205301316_2_alg».proof.Proof.Gen.KernelIdeal.Skeleton
import proofs.«151648_j33449205301316_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffer contents when the region is entered: the launch memory after the two reshapes of the labels. -/
abbrev W1 (c : Dev nD) : Valuation τ sig (Elt F) := StableHlo.after hostOps0 (fun b => m (c, b))
/-- The same read at a TensorCore reference. -/
abbrev V (c : Dev nD) (b : Ref sig .tc) : Buf (Elt F) ((c : Thread nD τ).loc b) := W1 m c (Proc.devRef .tc b)

/-- The share at which each input window holds its array: windows 0 and 1 both read the embeddings, one half each. -/
def qShare : Fin 5 → PosShare TreeShare
  | ⟨0, _⟩ => fullShare.left
  | ⟨1, _⟩ => fullShare.right
  | _ => fullShare

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .f32 := win0_4.stage (cfg0.slots t 4)
abbrev hs0_4 (t : Fin cfg0.N) : (ms0_4 t).IsWhole := hstage0_4 ((cfg0.slots t 4).cast nbuf0_4)
/-- The two scratch operands (the running least and greatest squared distances), whole buffers of the kernel's own. -/
abbrev scM0_0 : Memref sig .tc .vmem S4096x1 .f32 := Memref.whole cc0_scratch0
abbrev scM0_1 : Memref sig .tc .vmem S4096x1 .f32 := Memref.whole cc0_scratch1
/-- Views through which the contents of the output's staging buffer and of the two scratch buffers are stated. -/
abbrev VO0_4 : View sig .tc .vmem S4096x1 .f32 := (Memref.whole cc0_stg4_0 : Memref sig .tc .vmem S4096x1 .f32).view
abbrev VS0_0 : View sig .tc .vmem S4096x1 .f32 := scM0_0.view
abbrev VS0_1 : View sig .tc .vmem S4096x1 .f32 := scM0_1.view

/-- The body's first condition (reset the running extrema): the column-tile index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- The body's second condition (write the row losses): the column-tile index is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- A point's coordinates: the row block is `t / 32`, the column tile `t % 32`. -/
theorem coords_0 : ∀ t : Fin cfg0.N, ((grid0.coords t) 0).val = t.val / 32 :=
  (by decide +kernel : ∀ t : Fin grid0.N, ((grid0.coords t) 0).val = t.val / 32)
theorem coords_1 : ∀ t : Fin cfg0.N, ((grid0.coords t) 1).val = t.val % 32 :=
  (by decide +kernel : ∀ t : Fin grid0.N, ((grid0.coords t) 1).val = t.val % 32)

/-- The region's invariant as the launch hands it over: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
/-
  The body at a point whose column tile is the FIRST of its row block (tile index 0, not 31): it resets the two running
  extrema (the least squared distance to a positive to ⊤, the greatest to a negative to ⊥), then folds this tile's
  candidates into them. The output window's buffer is not touched. Stated on any whole staging memrefs holding the
  four input blocks; what the two scratch buffers end with is found as the list of the body's stores.
-/
import proofs.«151648_j33449205301316_2_alg».proof.Proof.KernelIdeal.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the two scratch buffers (last first) at a first column tile, with the run: from the
    inputs' buffers at their blocks, the output's buffer at any contents `xi4` (handed back untouched) and the scratch
    buffers at anything, the body reaches its end holding the inputs as they were and each scratch with its stores written. -/
noncomputable def kernelRun0_A (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) :
    Σ' (LS0 : List (View.Piece (Elt F) S4096x1 .f32)), { LS1 : List (View.Piece (Elt F) S4096x1 .f32) //
      ∀ (xi4 : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KernelIdeal.RunB.lean ====
/-
  The body at a point whose column tile is neither the first nor the last of its row block (tile index 1 … 30): it
  folds this tile's candidates into the two running extrema, which the point before left in the scratch buffers. The
  output window's buffer is not touched.
-/
import proofs.«151648_j33449205301316_2_alg».proof.Proof.KernelIdeal.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the two scratch buffers at a middle column tile, with the run: from the inputs'
    buffers at their blocks, the output's buffer at any contents `xi4` (handed back untouched) and the scratch buffers at
    the running extrema `xs0`, `xs1`, the body reaches its end holding the inputs as they were and each scratch with its
    store written. -/
noncomputable def kernelRun0_B (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) :
    Σ' (LS0 : List (View.Piece (Elt F) S4096x1 .f32)), { LS1 : List (View.Piece (Elt F) S4096x1 .f32) //
      ∀ (xi4 : Vec F S4096x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KernelIdeal.RunC.lean ====
/-
  The body at a point whose column tile is the LAST of its row block (tile index 31): it folds this tile's candidates
  into the two running extrema, then writes the row losses computed from the finished extrema into the output window's
  buffer.
-/
import proofs.«151648_j33449205301316_2_alg».proof.Proof.KernelIdeal.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the output's buffer and in the two scratch buffers at a last column tile, with the
    run: from the inputs' buffers at their blocks, the output's buffer at anything and the scratch buffers at the running
    extrema `xs0`, `xs1`, the body reaches its end holding the inputs as they were and the output's buffer and each
    scratch with its store written. -/
noncomputable def kernelRun0_C (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) :
    Σ' (L4 : List (View.Piece (Elt F) S4096x1 .f32)) (LS0 : List (View.Piece (Elt F) S4096x1 .f32)), { LS1 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KernelIdeal.Body.lean ====
/-
  The body obligation of the kernel region, and the region's proof data.

  What each of the three kinds of point leaves in the two scratch buffers (and, at a last column tile, in the output
  window's buffer) is read back from the stores its run found; `outsAt0` follows these contents point by point through the
  grid — a first column tile starts the running extrema afresh, every other tile continues from what the point before
  left —; the invariant between points holds the two scratch buffers at those contents; and the body obligation at a
  point is that point's run, chosen by the closed forms of the two conditions.
-/
import proofs.«151648_j33449205301316_2_alg».proof.Proof.KernelIdeal.RunA
import proofs.«151648_j33449205301316_2_alg».proof.Proof.KernelIdeal.RunB
import proofs.«151648_j33449205301316_2_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a last column tile the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a last column tile it is live. -/
theorem liveAt0_4 : ∀ t : Fin cfg0.N, cond0_1 (grid0.coords t) → cfg0.idle 4 (grid0.coords t) = false := by decide +kernel

/-! ## What each kind of point leaves -/

/-- The contents stated for the output window's buffer at a point that does not store into it (never consulted: the
    window is idle there and not written back). -/
def outIdle : Vec F S4096x1 .f32 := VO0_4.read (Elt F) (VO0_4.writes (Elt F) VO0_4.junk [])

/-- The stores of a point of kind A into scratch 0 cover it. -/
theorem scover0_A_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) (y : S4096x1.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S4096x1.size (by sl_kernel_rfl) y

/-- What a point of kind A leaves in scratch 0: its stores read back. -/
def sout0_A_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) : Vec F S4096x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

/-- The stores of a point of kind A into scratch 1 cover it. -/
theorem scover0_A_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) (y : S4096x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S4096x1.size (by sl_kernel_rfl) y

/-- What a point of kind A leaves in scratch 1: its stores read back. -/
def sout0_A_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) : Vec F S4096x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)

/-- The stores of a point of kind B into scratch 0 cover it. -/
theorem scover0_B_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S4096x1.size (by sl_kernel_rfl) y

/-- What a point of kind B leaves in scratch 0: its stores read back. -/
def sout0_B_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).1)

/-- The stores of a point of kind B into scratch 1 cover it. -/
theorem scover0_B_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S4096x1.size (by sl_kernel_rfl) y

/-- What a point of kind B leaves in scratch 1: its stores read back. -/
def sout0_B_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.1)

/-- The stores of a point of kind C into scratch 0 cover it. -/
theorem scover0_C_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S4096x1.size (by sl_kernel_rfl) y

/-- What a point of kind C leaves in scratch 0: its stores read back. -/
def sout0_C_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- The stores of a point of kind C into scratch 1 cover it. -/
theorem scover0_C_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S4096x1.size (by sl_kernel_rfl) y

/-- What a point of kind C leaves in scratch 1: its stores read back. -/
def sout0_C_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-- The store of a last column tile into the output window's buffer covers it. -/
theorem cover0_C_4 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) (y : S4096x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S4096x1.size (by sl_kernel_rfl) y

/-- What a last column tile leaves in the output window's buffer: its store read back. -/
def out0_C_4 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 : Vec F S4096x1 .f32) (xs1 : Vec F S4096x1 .f32) : Vec F S4096x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-! ## Point by point -/

/-- What the output window's buffer and the two scratch buffers hold after the body at position `n`: at a first column
    tile the reset-and-fold of that tile's blocks; at any other tile the fold of its blocks into what position `n - 1` left
    in the scratch buffers; at a last column tile also the row losses in the output window's buffer. -/
def outsAt0 (c : Dev nD) : (n : ℕ) → n < cfg0.N → Vec F S4096x1 .f32 × Vec F S4096x1 .f32 × Vec F S4096x1 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) (h1 : ¬t.val % 32 = 31) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over (both scratch buffers at anything); after point `n` the two
    scratch buffers at what that point left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; the two windows on the embeddings at one half
    of that array each; nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q := qShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = (outsAt0 m c t.val t.isLt).1 := by dsimp only [dats]

/-- Input window 0's current staging buffer holds its block at every point, fetched there or not. -/
theorem before0_0 (c : Dev nD) (t : Fin cfg0.N) (d) : (dats m c).before 0 t d = iblk m c 0 t :=
  ((dats m c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before0_1 (c : Dev nD) (t : Fin cfg0.N) (d) : (dats m c).before 1 t d = iblk m c 1 t :=
  ((dats m c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before0_2 (c : Dev nD) (t : Fin cfg0.N) (d) : (dats m c).before 2 t d = iblk m c 2 t :=
  ((dats m c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before0_3 (c : Dev nD) (t : Fin cfg0.N) (d) : (dats m c).before 3 t d = iblk m c 3 t :=
  ((dats m c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t)

set_option maxHeartbeats 8000000 in
/-- The body at any point: the inputs' buffers hold their blocks; the closed forms of the two conditions say which kind
    of point it is, so that kind's run applies; the invariant hands the body the two scratch buffers at what the point
    before left (at anything at a first column tile) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 64 := lt_of_lt_of_eq t.isLt (show cfg0.N = 64 from N_0)
  rw [show (dats m c).leavesExact 0 t = owns (c : Thread nD τ) (ms0_0 t) fullShare ((dats m c).after 0 t) from by
    unfold Dat.leavesExact; rw [liveAt0_0 t], after0_0]
  rw [show (dats m c).leavesExact 1 t = owns (c : Thread nD τ) (ms0_1 t) fullShare ((dats m c).after 1 t) from by
    unfold Dat.leavesExact; rw [liveAt0_1 t], after0_1]
  rw [show (dats m c).leavesExact 2 t = owns (c : Thread nD τ) (ms0_2 t) fullShare ((dats m c).after 2 t) from by
    unfold Dat.leavesExact; rw [liveAt0_2 t], after0_2]
  rw [show (dats m c).leavesExact 3 t = owns (c : Thread nD τ) (ms0_3 t) fullShare ((dats m c).after 3 t) from by
    unfold Dat.leavesExact; rw [liveAt0_3 t], after0_3]
  by_cases h0 : t.val % 32 = 0
  · by_cases h1 : t.val % 32 = 31
    · exfalso; omega
    · rw [Dat.leavesExact_idle (dats m c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
            · unfold owns; iexists _; isplitr
              swap; · iexact HS1
              ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t))
          iexact Hg
        isplitl [Ho]; · iexact Ho
        isplitl [H0]; · iexact H0
        isplitl [H1]; · iexact H1
        isplitl [H2]; · iexact H2
        isplitl [H3]; · iexact H3
        iexists _; iexact H4
  · by_cases h1 : t.val % 32 = 31
    · rw [show (dats m c).leavesExact 4 t = owns (c : Thread nD τ) (ms0_4 t) fullShare ((dats m c).after 4 t) from by
        unfold Dat.leavesExact; rw [liveAt0_4 t ((hcond0_1 t).mpr h1)], after0_4]
      rw [outsAt0_C m c t h0 h1]
      unfold out0_C_4 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
    · rw [Dat.leavesExact_idle (dats m c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
          · unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m c).Φ (Fin.last cfg0.N) ⊢ Pipeline.ΦA spec0 c :=
  Phi_out m c _ (by rw [Fin.val_last]; have : cfg0.N = 64 := N_0; omega)

end Cert.KernelIdeal.Hand

end
-- ==== Proof.Pieces.lean ====
/-
  What each kind of point leaves, as values: the stores the runs found, read back, are the body's payloads — the fold of
  this tile's candidates into the running extrema the scratch buffers held (at a first column tile: into ⊤ and ⊥, which
  the body has just stored there), and at a last column tile the row losses of the finished extrema.
-/
import proofs.«151648_j33449205301316_2_alg».proof.Proof.KernelIdeal.Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem sout_B_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 xs1 : Vec F S4096x1 .f32) :
    sout0_B_0 c i arg2 harg2 arg3 harg3 arg4 harg4 arg5 harg5 arg6 harg6 arg7 harg7 arg8 harg8 hc0 hc1 x0 x1 x2 x3 xs0 xs1 = k0_pay1 (k0_pay6 x0 x1) (k0_pay7 x2 x3) (k0_pay8 i) (k0_pay9 i) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

theorem sout_B_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x128 .f32) (x1 : Vec F S256x128 .f32) (x2 : Vec F S4096x1 .i32) (x3 : Vec F S1x256 .i32) (xs0 xs1 : Vec F S4096x1 .f32) :
    sout0_B_1 c i arg2 harg2 arg3 harg3 arg4 harg4 arg5 harg5 arg6 harg6 arg7 harg7 arg8 harg8 hc0 hc1 x0 x1 x2 x3 xs0 xs1 = k0_pay2 (k0_pay6 x0 x1) (k0_pay7 x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

theorem sout_C_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 xs1 : Vec F S4096x1 .f32) :
    sout0_C_0 c i arg2 harg2 arg3 harg3 arg4 harg4 arg5 harg5 arg6 harg6 arg7 harg7 arg8 harg8 hc0 hc1 x0 x1 x2 x3 xs0 xs1 = k0_pay1 (k0_pay6 x0 x1) (k0_pay7 x2 x3) (k0_pay8 i) (k0_pay9 i) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

theorem sout_C_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 xs1 : Vec F S4096x1 .f32) :
    sout0_C_1 c i arg2 harg2 arg3 harg3 arg4 harg4 arg5 harg5 arg6 harg6 arg7 harg7 arg8 harg8 hc0 hc1 x0 x1 x2 x3 xs0 xs1 = k0_pay2 (k0_pay6 x0 x1) (k0_pay7 x2 x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

theorem out_C_4 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x128 .f32) (x1 : Vec F S256x128 .f32) (x2 : Vec F S4096x1 .i32) (x3 : Vec F S1x256 .i32) (xs0 xs1 : Vec F S4096x1 .f32) :
    out0_C_4 c i arg2 harg2 arg3 harg3 arg4 harg4 arg5 harg5 arg6 harg6 arg7 harg7 arg8 harg8 hc0 hc1 x0 x1 x2 x3 xs0 xs1 = k0_pay3 (k0_pay1 (k0_pay6 x0 x1) (k0_pay7 x2 x3) (k0_pay8 i) (k0_pay9 i) xs0) (k0_pay2 (k0_pay6 x0 x1) (k0_pay7 x2 x3) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]
  rw [View.readCov_unit_zero (S := S4096x1) _ hz, View.readCov_unit_zero (S := S4096x1) _ hz]

theorem sout_A_0 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) :
    sout0_A_0 c i arg2 harg2 arg3 harg3 arg4 harg4 arg5 harg5 arg6 harg6 arg7 harg7 arg8 harg8 hc0 hc1 x0 x1 x2 x3 = k0_pay1 (k0_pay6 x0 x1) (k0_pay7 x2 x3) (k0_pay8 i) (k0_pay9 i) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S4096x1) hz, View.readCov_unit_zero (S := S4096x1) _ hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

theorem sout_A_1 (c : Dev nD) (i : grid0.Coords) (arg2 : Memref sig .tc .vmem S4096x128 .f32) (harg2 : arg2.IsWhole) (arg3 : Memref sig .tc .vmem S256x128 .f32) (harg3 : arg3.IsWhole) (arg4 : Memref sig .tc .vmem S4096x1 .i32) (harg4 : arg4.IsWhole) (arg5 : Memref sig .tc .vmem S1x256 .i32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x128 .f32) (x1 : Vec F S256x128 .f32) (x2 : Vec F S4096x1 .i32) (x3 : Vec F S1x256 .i32) :
    sout0_A_1 c i arg2 harg2 arg3 harg3 arg4 harg4 arg5 harg5 arg6 harg6 arg7 harg7 arg8 harg8 hc0 hc1 x0 x1 x2 x3 = k0_pay2 (k0_pay6 x0 x1) (k0_pay7 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S4096x1) hz, View.readCov_unit_zero (S := S4096x1) _ hz]
  simp only [View.readAt_eq_ld, harg2.read_unread, harg3.read_unread, harg4.read_unread, harg5.read_unread, harg6.read_unread, harg7.read_unread, harg8.read_unread, View.ld_unit_zero (S := S4096x1) hz, View.ld_unit_zero (S := S4096x128) hz, View.ld_unit_zero (S := S256x128) hz, View.ld_unit_zero (S := S1x256) hz]

end Cert.KernelIdeal.Hand

end
-- ==== Proof.Spec.lean ====
/-
  The specification both programs are read against, over plain index types.

  For embeddings `x : Fin 8192 → Fin 128 → EReal` and labels `lab : Fin 8192 → BitVec 32`:
  the squared distance of rows `r`, `c` is `max (‖x r‖² + ‖x c‖² − 2·⟨x r, x c⟩) 0`; a POSITIVE of row `r` is
  another row with the same label, a NEGATIVE a row with a different label. The loss of row `r` is
  `max (d⁺ − d⁻ + 1) 0` with `d⁺` the least distance to a positive (`⊤` when there is none) and `d⁻` the greatest
  distance to a negative (`⊥` when there is none); the result is the mean over the rows.

  Two spellings of the row loss are stated: `hingeSq` takes the extrema of the SQUARED distances and one square root
  of each (the square root is monotone on `[0, ⊤]`), `hinge` takes the square root of every distance first.
-/
import Idealize.ShloMosaic.PureOps.Ideal

noncomputable section

namespace Cert.MarginSpec

open Idealize.ShloMosaic

/-- The float literals of the two programs, kept as the values their words denote. -/
abbrev zero : EReal := Ideal.ofBits .f32 0x00000000#32
abbrev one : EReal := Ideal.ofBits .f32 0x3F800000#32
abbrev two : EReal := Ideal.ofBits .f32 0x40000000#32
abbrev count : EReal := Ideal.ofBits .f32 0x46000000#32
abbrev pinf : EReal := Ideal.ofBits .f32 0x7F800000#32
abbrev ninf : EReal := Ideal.ofBits .f32 0xFF800000#32

variable (x : Fin 8192 → Fin 128 → EReal) (lab : Fin 8192 → BitVec 32)

/-- The squared norm of row `r`. -/
def sqn (r : Fin 8192) : EReal := ∑ k : Fin 128, x r k * x r k
/-- The inner product of rows `r` and `c`. -/
def dotp (r c : Fin 8192) : EReal := ∑ k : Fin 128, x r k * x c k
/-- The squared distance of rows `r` and `c`, clamped at zero. -/
def dist2 (r c : Fin 8192) : EReal := max (sqn x r + sqn x c - two * dotp x r c) zero

/-- Row `c` as a candidate positive of row `r`, by its squared distance. -/
def posSq (r c : Fin 8192) : EReal := if lab r = lab c ∧ r ≠ c then dist2 x r c else pinf
/-- Row `c` as a candidate negative of row `r`, by its squared distance. -/
def negSq (r c : Fin 8192) : EReal := if lab r = lab c then ninf else dist2 x r c
/-- The least squared distance from row `r` to a positive. -/
def minPosSq (r : Fin 8192) : EReal := Finset.univ.inf (posSq x lab r)
/-- The greatest squared distance from row `r` to a negative. -/
def maxNegSq (r : Fin 8192) : EReal := Finset.univ.sup (negSq x lab r)

/-- The row loss from extrema `a` (least squared distance to a positive) and `b` (greatest squared distance to a
    negative): one square root of each, a row without negatives at `⊥`. -/
def hingeOf (a b : EReal) : EReal :=
  max (Ideal.sqrt (max a zero) - (if zero ≤ b then Ideal.sqrt (max b zero) else ninf) + one) zero

/-- The row loss, the extrema taken of the squared distances. -/
def hingeSq (r : Fin 8192) : EReal := hingeOf (minPosSq x lab r) (maxNegSq x lab r)

/-- The distance of rows `r` and `c`: the square root of a positive squared distance, zero at zero. -/
def dist (r c : Fin 8192) : EReal :=
  if zero < dist2 x r c then Ideal.sqrt (if zero < dist2 x r c then dist2 x r c else one) else zero
/-- Row `c` as a candidate positive of row `r`, by its distance. -/
def posD (r c : Fin 8192) : EReal := if lab r = lab c ∧ r ≠ c then dist x r c else pinf
/-- Row `c` as a candidate negative of row `r`, by its distance. -/
def negD (r c : Fin 8192) : EReal := if ¬ lab r = lab c then dist x r c else ninf
/-- The row loss, the extrema taken of the distances. -/
def hinge (r : Fin 8192) : EReal :=
  max (Finset.univ.inf (posD x lab r) - Finset.univ.sup (negD x lab r) + one) zero

/-- The mean of the row losses: their sum from zero, divided by the number of rows. -/
def mean (h : Fin 8192 → EReal) : EReal := Ideal.div (zero + ∑ r : Fin 8192, h r) count

end Cert.MarginSpec

end
-- ==== Proof.PayTile.lean ====
/-
  The tile payloads of the kernel body, read at an index of the tile.

  At the grid point `(i 0, i 1)` the body works on the rows `i 0 * 4096 + r` (`r < 4096`) against the columns
  `i 1 * 256 + q` (`q < 256`). Four values of shape `[4096, 256]` are computed from the loaded blocks before the
  running extrema are updated; this file says what each of them is at the tile index `(r, q)`, at the ideal instance:
  • the clamped squared distance `max (‖x r‖² + ‖y q‖² − 2·⟨x r, y q⟩) 0` of row `r` of the row block and row `q` of
    the column block (the change of format in front of the matrix product is the identity on extended reals, the matrix
    product into a zero accumulator contracting the second axis of both operands is the plain sum of products, and
    each squared norm is a sum along the lanes carried to the tile by a unit-axis cast, a transpose and a broadcast);
  • the same-label bit: `1` exactly when the label of row `r` equals the label of column `q`;
  • the global row number `i 0 * 4096 + r` and the global column number `i 1 * 256 + q` as 32-bit words (the products
    and sums are far below `2 ^ 32`, so the words are equal exactly when the numbers are: the diagonal test).
-/
import proofs.«151648_j33449205301316_2_alg».proof.Proof.Gen.KernelIdeal.Skeleton
import proofs.«151648_j33449205301316_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.MarginSpec

/-! ## Column forms of the layout operations (a unit axis in the second place) -/

section Layout
variable {α : Type}

/-- An `[a]` array cast to `[a, 1]` reads, at `(i, u)`, the operand at `i`, whatever the unit coordinate `u`. -/
theorem tile_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The clamped squared distance -/

/-- A sum along the lanes: a float sum-reduction of an `[a, b]` array along its second axis, from the zero word, is at
    row `p` the sum of that row (the inserted index is `(p, k)`). -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src (funext fun c => Fin.ext ?_)
  match c with
  | ⟨0, _⟩ => rfl
  | ⟨1, _⟩ => rfl

/-- The squared norm of row `r` of the row block, carried to the tile: the lane sum of the squares, cast to a column
    and broadcast along the tile's columns. -/
theorem rowNorm_tile (x : FVec Ideal S4096x128 .f32) (hr : S4096x128.Reduces [1] S4096) (hφ : FKind.Formats .f32)
    (hacc : (0x00000000#32 : BitVec 32) = FKind.add.neutral .f32 hφ) (hc : S4096.ShapeCasts S4096x1)
    (hb : S4096x1.Broadcasts S4096x256) (r : Fin 4096) (q : Fin 256) :
    broadcastTo S4096x256 (shapeCast S4096x1 (multiReduction .add [1] S4096 (mulf x x) 0x00000000#32 hr hφ hacc) hc) hb (ix2 r q)
      = ∑ k : Fin 128, x (ix2 r k) * x (ix2 r k) :=
  (broadcastTo_a1_ab_apply _ hb r q).trans ((tile_shapeCast_a_a1_apply _ hc r 0).trans (laneSum_apply (mulf x x) hr hφ hacc r))

/-- The squared norm of row `q` of the column block, carried to the tile: the lane sum of the squares, cast to a
    column, transposed to a row and broadcast along the tile's rows. -/
theorem colNorm_tile (y : FVec Ideal S256x128 .f32) (hr : S256x128.Reduces [1] S256) (hφ : FKind.Formats .f32)
    (hacc : (0x00000000#32 : BitVec 32) = FKind.add.neutral .f32 hφ) (hc : S256.ShapeCasts S256x1)
    (ht : S256x1.Transposes [1, 0] S1x256) (hb : S1x256.Broadcasts S4096x256) (r : Fin 4096) (q : Fin 256) :
    broadcastTo S4096x256 (transpose S1x256 [1, 0]
        (shapeCast S256x1 (multiReduction .add [1] S256 (mulf y y) 0x00000000#32 hr hφ hacc) hc) ht) hb (ix2 r q)
      = ∑ k : Fin 128, y (ix2 q k) * y (ix2 q k) :=
  (broadcastTo_1b_ab_apply _ hb r q).trans ((transpose_ix2_apply _ ht 0 q).trans
    ((tile_shapeCast_a_a1_apply _ hc q 0).trans (laneSum_apply (mulf y y) hr hφ hacc q)))

/-- The left operand of the matrix product at output index `j` reads `j`'s row on its first axis … -/
theorem lhs_row (j : S4096x256.Idx) (k : dot_S4096x128_S256x128_S4096x256_1_1_0_0_n_n.contr.Idx) :
    (dot_S4096x128_S256x128_S4096x256_1_1_0_0_n_n.lhsIdx j k 0).val = (j 0).val := by
  unfold DotDims.lhsIdx
  rw [dif_neg (show ¬(0 : Fin S4096x128.rank) ∈ dot_S4096x128_S256x128_S4096x256_1_1_0_0_n_n.lhsBatch by decide),
    dif_pos (show (0 : Fin S4096x128.rank) ∈ dot_S4096x128_S256x128_S4096x256_1_1_0_0_n_n.lhsNonContracting by decide)]
  rfl

/-- … and the right operand reads `j`'s column on its first axis (both operands are contracted along their second). -/
theorem rhs_row (j : S4096x256.Idx) (k : dot_S4096x128_S256x128_S4096x256_1_1_0_0_n_n.contr.Idx) :
    (dot_S4096x128_S256x128_S4096x256_1_1_0_0_n_n.rhsIdx j k 0).val = (j 1).val := by
  unfold DotDims.rhsIdx
  rw [dif_neg (show ¬(0 : Fin S256x128.rank) ∈ dot_S4096x128_S256x128_S4096x256_1_1_0_0_n_n.rhsBatch by decide),
    dif_pos (show (0 : Fin S256x128.rank) ∈ dot_S4096x128_S256x128_S4096x256_1_1_0_0_n_n.rhsNonContracting by decide)]
  rfl

/-- The matrix product into a zero accumulator, at `(r, q)`: the inner product of row `r` of the left operand and
    row `q` of the right one, the contraction index re-indexed by its one coordinate. -/
theorem dot_tile (x : FVec Ideal S4096x128 .bf16) (y : FVec Ideal S256x128 .bf16) (r : Fin 4096) (q : Fin 256) :
    matmul dot_S4096x128_S256x128_S4096x256_1_1_0_0_n_n none x y (constant (F := Ideal) S4096x256 .f32 0x00000000#32) (ix2 r q)
      = ∑ k : Fin 128, x (ix2 r k) * y (ix2 q k) := by
  refine (Ideal.matmul_constant_zero_apply dot_S4096x128_S256x128_S4096x256_1_1_0_0_n_n none x y (ix2 r q)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 r q)
      ((contrEquiv1 dot_S4096x128_S256x128_S4096x256_1_1_0_0_n_n 128 rfl rfl).symm k) = ix2 r k :=
    funext fun a => Fin.ext (by
      match a with
      | ⟨0, _⟩ => exact lhs_row _ _
      | ⟨1, _⟩ => exact (dot_S4096x128_S256x128_S4096x256_1_1_0_0_n_n.lhsIdx_val_of_single rfl _ _).trans hk)
  have er : dot_S4096x128_S256x128_S4096x256_1_1_0_0_n_n.rhsIdx (ix2 r q)
      ((contrEquiv1 dot_S4096x128_S256x128_S4096x256_1_1_0_0_n_n 128 rfl rfl).symm k) = ix2 q k :=
    funext fun a => Fin.ext (by
      match a with
      | ⟨0, _⟩ => exact rhs_row _ _
      | ⟨1, _⟩ => exact (dot_S4096x128_S256x128_S4096x256_1_1_0_0_n_n.rhsIdx_val_of_single rfl _ _).trans hk)
  rw [el, er]

/-- The tile's clamped squared distance at `(r, q)`: `max (‖x r‖² + ‖y q‖² − 2·⟨x r, y q⟩) 0`. The change of format
    in front of the matrix product is the identity on extended reals. -/
theorem pay6_apply (x0 : Vec Ideal S4096x128 .f32) (x1 : Vec Ideal S256x128 .f32) (r : Fin 4096) (q : Fin 256) :
    k0_pay6 (F := Ideal) x0 x1 (ix2 r q)
      = max ((∑ k : Fin 128, x0 (ix2 r k) * x0 (ix2 r k)) + (∑ k : Fin 128, x1 (ix2 q k) * x1 (ix2 q k))
          - two * (∑ k : Fin 128, x0 (ix2 r k) * x1 (ix2 q k))) zero := by
  unfold k0_pay6
  show max
      ((broadcastTo S4096x256 (shapeCast S4096x1
            (multiReduction (F := Ideal) .add [1] S4096 (mulf x0 x0) 0x00000000#32 reduces_S4096x128_S4096 (.inl rfl) rfl)
            shapeCasts_S4096_S4096x1) broadcasts_S4096x1_S4096x256 (ix2 r q)
        + broadcastTo S4096x256 (transpose S1x256 [1, 0] (shapeCast S256x1
            (multiReduction (F := Ideal) .add [1] S256 (mulf x1 x1) 0x00000000#32 reduces_S256x128_S256 (.inl rfl) rfl)
            shapeCasts_S256_S256x1) transposes_S256x1_p1_0_S1x256) broadcasts_S1x256_S4096x256 (ix2 r q))
        - two * matmul (F := Ideal) dot_S4096x128_S256x128_S4096x256_1_1_0_0_n_n none (truncf (F := Ideal) .bf16 x0 bitsLt_bf16_f32)
            (truncf (F := Ideal) .bf16 x1 bitsLt_bf16_f32) (constant (F := Ideal) S4096x256 .f32 0x00000000#32) (ix2 r q))
      zero = _
  exact congrArg₂ max
    (congrArg₂ (· - ·)
      (congrArg₂ (· + ·) (rowNorm_tile x0 _ _ _ _ _ r q) (colNorm_tile x1 _ _ _ _ _ _ r q))
      (congrArg (two * ·) (dot_tile (truncf (F := Ideal) .bf16 x0 bitsLt_bf16_f32) (truncf (F := Ideal) .bf16 x1 bitsLt_bf16_f32) r q)))
    rfl

/-! ## The same-label bit -/

/-- The word of an equality test of two words, as an `if`. -/
theorem cmpi_eq_ite {w : ℕ} (x y : BitVec w) : IntOp.cmpi .eq x y = if x = y then 1#1 else 0#1 := by
  by_cases h : x = y
  · rw [if_pos h]; exact IntOp.cmpi_eq.mpr h
  · rw [if_neg h]; exact eq_zero_of_ne_one fun h1 => h (IntOp.cmpi_eq.mp h1)

/-- The same-label bit of the tile at `(r, q)`: the label of row `r` compared with the label of column `q`. -/
theorem pay7_apply (l0 : Vec Ideal S4096x1 .i32) (l1 : Vec Ideal S1x256 .i32) (r : Fin 4096) (q : Fin 256) :
    k0_pay7 (F := Ideal) l0 l1 (ix2 r q) = if l0 (ix2 r 0) = l1 (ix2 0 q) then 1#1 else 0#1 := by
  unfold k0_pay7
  refine Eq.trans ?_ (cmpi_eq_ite (l0 (ix2 r 0)) (l1 (ix2 0 q)))
  show IntOp.cmpi .eq
      (broadcastTo S4096x256 (shapeCast S4096x1 l0 shapeCasts_S4096x1_S4096x1) broadcasts_S4096x1_S4096x256 (ix2 r q))
      (broadcastTo S4096x256 (shapeCast S1x256 l1 shapeCasts_S1x256_S1x256) broadcasts_S1x256_S4096x256 (ix2 r q)) = _
  rw [shapeCast_self, shapeCast_self]
  exact congrArg₂ (IntOp.cmpi .eq) (broadcastTo_a1_ab_apply l0 _ r q) (broadcastTo_1b_ab_apply l1 _ r q)

/-- The same-label bit is set exactly when the two labels are equal. -/
theorem pay7_eq_one_iff (l0 : Vec Ideal S4096x1 .i32) (l1 : Vec Ideal S1x256 .i32) (r : Fin 4096) (q : Fin 256) :
    k0_pay7 (F := Ideal) l0 l1 (ix2 r q) = 1#1 ↔ l0 (ix2 r 0) = l1 (ix2 0 q) := by
  rw [pay7_apply]
  by_cases h : l0 (ix2 r 0) = l1 (ix2 0 q)
  · rw [if_pos h]; exact ⟨fun _ => h, fun _ => rfl⟩
  · rw [if_neg h]; exact ⟨fun h1 => absurd h1 (by decide), fun h1 => absurd h1 h⟩

/-! ## The global row and column numbers -/

/-- Words of small numbers multiply and add as the numbers do. -/
theorem ofNat_mul_add (a b c : ℕ) :
    IntOp.addi (Scalar.muli (BitVec.ofNat 32 a) (BitVec.ofNat 32 b)) (BitVec.ofNat 32 c) = BitVec.ofNat 32 (a * b + c) := by
  show BitVec.ofNat 32 a * BitVec.ofNat 32 b + BitVec.ofNat 32 c = _
  rw [← BitVec.ofNat_mul, ← BitVec.ofNat_add]

/-- The global row number of the tile's row `r`, at every column. -/
theorem pay8_apply (i : grid0.Coords) (r : Fin 4096) (q : Fin 256) :
    k0_pay8 i (ix2 r q) = BitVec.ofNat 32 ((i 0).val * 4096 + r.val) := by
  unfold k0_pay8
  refine (broadcastTo_a1_ab_apply _ _ r q).trans ?_
  refine Eq.trans ?_ (ofNat_mul_add (i 0).val 4096 r.val)
  show IntOp.addi (Scalar.muli (BitVec.ofNat 32 (i 0).val) 4096#32) (iota .tc S4096x1 32 [0] iota_S4096x1_d0_w32 (ix2 r 0)) = _
  rw [iota_single_apply]

/-- The global column number of the tile's column `q`, at every row. -/
theorem pay9_apply (i : grid0.Coords) (r : Fin 4096) (q : Fin 256) :
    k0_pay9 i (ix2 r q) = BitVec.ofNat 32 ((i 1).val * 256 + q.val) := by
  unfold k0_pay9
  refine (broadcastTo_1b_ab_apply _ _ r q).trans ?_
  refine Eq.trans ?_ (ofNat_mul_add (i 1).val 256 q.val)
  show IntOp.addi (Scalar.muli (BitVec.ofNat 32 (i 1).val) 256#32) (iota .tc S1x256 32 [1] iota_S1x256_d1_w32 (ix2 0 q)) = _
  rw [iota_single_apply]

/-- The diagonal test: the two words are equal exactly when the global row and column numbers are. -/
theorem diag_iff (i : grid0.Coords) (r : Fin 4096) (q : Fin 256) :
    k0_pay8 i (ix2 r q) = k0_pay9 i (ix2 r q) ↔ (i 0).val * 4096 + r.val = (i 1).val * 256 + q.val := by
  rw [pay8_apply, pay9_apply]
  have h0 : (i 0).val < 2 := (i 0).isLt
  have h1 : (i 1).val < 32 := (i 1).isLt
  have hr := r.isLt
  have hq := q.isLt
  constructor
  · intro h
    have := congrArg BitVec.toNat h
    rw [BitVec.toNat_ofNat, BitVec.toNat_ofNat, Nat.mod_eq_of_lt (by omega), Nat.mod_eq_of_lt (by omega)] at this
    exact this
  · intro h; rw [h]

end Cert.KernelIdeal.Pay

end
-- ==== Proof.PayFold.lean ====
/-
  The kernel body's fold payloads and @main's tail, read at an index.

  Each payload of the kernel body is a chain of pointwise, layout and reduction operations over vectors.  Read at one
  row index, at the ideal instance (floats are extended reals, `maximumf` / `minimumf` are `max` / `min`), each is a
  closed expression over the operands' elements:
  • the two initial stores write `+∞` and `-∞` in every row;
  • the running least squared distance to a positive is the `min` of the carried value and the infimum, over the
    tile's columns, of the masked squared distances (a column that is not a positive counts as `+∞`);
  • the running greatest squared distance to a negative is the `max` of the carried value and the supremum, over the
    tile's columns, of the masked squared distances (a column with the row's label counts as `-∞`);
  • the final store writes the row loss `hingeOf` of the two carried extrema;
  • @main's tail, the sum over both axes of an `[8192, 1]` array divided by the row count, is the mean over the rows.
-/
import proofs.«151648_j33449205301316_2_alg».proof.Proof.Gen.KernelIdeal.Skeleton
import proofs.«151648_j33449205301316_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.MarginSpec

/-! ## Words and layout operations at an index -/

/-- `arith.select` on the bit of a decided proposition is the `if` on the proposition. -/
theorem select_ofBool {α : Type} (p : Prop) [Decidable p] (x y : α) :
    Scalar.select (BitVec.ofBool (decide p)) x y = if p then x else y := by
  by_cases h : p <;> simp [Scalar.select, h]

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The initial stores -/

/-- The first column tile stores `+∞` as every row's running minimum. -/
theorem pay4_apply (r : Fin 4096) : k0_pay4 (F := Ideal) (ix2 r (0 : Fin 1)) = pinf := by
  unfold k0_pay4
  exact congrFun (shapeCast_self _ _) _

/-- The first column tile stores `-∞` as every row's running maximum. -/
theorem pay5_apply (r : Fin 4096) : k0_pay5 (F := Ideal) (ix2 r (0 : Fin 1)) = ninf := by
  unfold k0_pay5
  exact congrFun (shapeCast_self _ _) _

/-! ## The final store: the row loss -/

/-- The last column tile stores, in row `r`, the row loss of the two carried extrema. -/
theorem pay3_apply (a b : Vec Ideal S4096x1 .f32) (r : Fin 4096) :
    k0_pay3 (F := Ideal) a b (ix2 r (0 : Fin 1)) = hingeOf (a (ix2 r 0)) (b (ix2 r 0)) := by
  unfold k0_pay3 hingeOf
  show max (Ideal.sqrt (max (a (ix2 r 0)) zero)
      - Scalar.select (BitVec.ofBool (decide (zero ≤ b (ix2 r 0)))) (Ideal.sqrt (max (b (ix2 r 0)) zero)) ninf + one) zero = _
  rw [select_ofBool]

/-! ## The two infinite literals -/

/-- The word `0x7F800000` denotes `+∞`. -/
theorem pinf_top : pinf = ⊤ := by simp [pinf, Ideal.ofBits, Ideal.ieee]
/-- The word `0xFF800000` denotes `-∞`. -/
theorem ninf_bot : ninf = ⊥ := by simp [ninf, Ideal.ofBits, Ideal.ieee]

/-! ## A row's extrema over the tile's columns -/

/-- The source index over row `r` of the reduced shape, with column `q` put back, is `(r, q)`. -/
theorem lift_row (h : S4096x256.Reduces [1] S4096) (r : Fin 4096) (q : Fin 256) :
    h.lift (ix1 r) q = ix2 r q := by
  funext c
  match c with
  | ⟨0, _⟩ => rfl
  | ⟨1, _⟩ => rfl

/-- A fold of `min` from `+∞` is the infimum. -/
theorem fold_min_pinf {ι : Type} (S : Finset ι) (f : ι → EReal) : S.fold min pinf f = S.inf f := by
  rw [pinf_top]; rfl

/-- A fold of `max` from `-∞` is the supremum. -/
theorem fold_max_ninf {ι : Type} (S : Finset ι) (f : ι → EReal) : S.fold max ninf f = S.sup f := by
  rw [ninf_bot]; rfl

/-- The minimum over axis 1 of a `[4096, 256]` vector, from the accumulator `+∞`, read at row `r`: the infimum over the
    row's 256 columns. -/
theorem multiReduction_minimumf_row (src : FVec Ideal S4096x256 .f32) (h : S4096x256.Reduces [1] S4096)
    (hφ : FKind.Formats .f32) (hacc : (0x7F800000#32 : BitVec 32) = FKind.minimumf.neutral .f32 hφ) (r : Fin 4096) :
    multiReduction .minimumf [1] S4096 src 0x7F800000#32 h hφ hacc (ix1 r)
      = (Finset.univ : Finset (Fin 256)).inf fun q => src (ix2 r q) := by
  refine (multiReduction_minimumf_eq_fold src _ h hφ hacc (ix1 r)).trans ?_
  refine (h.fold_filter_drop_single _ _ src (ix1 r)).trans ?_
  refine Eq.trans ?_ (fold_min_pinf (Finset.univ : Finset (Fin 256)) fun q => src (ix2 r q))
  exact congrArg (fun f => (Finset.univ : Finset (Fin 256)).fold min pinf f)
    (funext fun q => congrArg src (lift_row h r q))

/-- The maximum over axis 1 of a `[4096, 256]` vector, from the accumulator `-∞`, read at row `r`: the supremum over the
    row's 256 columns. -/
theorem multiReduction_maximumf_row (src : FVec Ideal S4096x256 .f32) (h : S4096x256.Reduces [1] S4096)
    (hφ : FKind.Formats .f32) (hacc : (0xFF800000#32 : BitVec 32) = FKind.maximumf.neutral .f32 hφ) (r : Fin 4096) :
    multiReduction .maximumf [1] S4096 src 0xFF800000#32 h hφ hacc (ix1 r)
      = (Finset.univ : Finset (Fin 256)).sup fun q => src (ix2 r q) := by
  refine (multiReduction_maximumf_eq_fold src _ h hφ hacc (ix1 r)).trans ?_
  refine (h.fold_filter_drop_single _ _ src (ix1 r)).trans ?_
  refine Eq.trans ?_ (fold_max_ninf (Finset.univ : Finset (Fin 256)) fun q => src (ix2 r q))
  exact congrArg (fun f => (Finset.univ : Finset (Fin 256)).fold max ninf f)
    (funext fun q => congrArg src (lift_row h r q))

/-- The positives' mask at an element: the same-label bit and not the same global row. -/
theorem select_and_ne {α : Type} (m : BitVec 1) (x y : BitVec 32) (a b : α) :
    Scalar.select (IntOp.andi m (IntOp.xori (IntOp.cmpi .eq x y) 1#1)) a b = if m = 1#1 ∧ x ≠ y then a else b := by
  unfold Scalar.select IntOp.andi IntOp.xori IntOp.cmpi
  by_cases hxy : x = y
  · have hb : (x == y) = true := by simpa using hxy
    rcases BitVec.eq_zero_or_eq_one m with hm | hm <;> subst hm <;> simp [hb, hxy]
  · have hb : (x == y) = false := by simpa using hxy
    rcases BitVec.eq_zero_or_eq_one m with hm | hm <;> subst hm <;> simp [hb, hxy]

/-! ## The running extrema -/

/-- Row `r`'s running least squared distance to a positive after a column tile: the carried value and the tile's masked
    squared distances, a column that is not a positive of the row counted as `+∞`. -/
theorem pay1_apply (v22 : FVec Ideal S4096x256 .f32) (v29 : IVec S4096x256 1) (v38 v39 : IVec S4096x256 32)
    (s : Vec Ideal S4096x1 .f32) (r : Fin 4096) :
    k0_pay1 (F := Ideal) v22 v29 v38 v39 s (ix2 r (0 : Fin 1))
      = min (s (ix2 r 0)) ((Finset.univ : Finset (Fin 256)).inf fun q =>
          if v29 (ix2 r q) = 1#1 ∧ v38 (ix2 r q) ≠ v39 (ix2 r q) then v22 (ix2 r q) else pinf) := by
  unfold k0_pay1
  refine (congrFun (shapeCast_self _ _) _).trans ?_
  show min (s (ix2 r 0)) _ = _
  refine congrArg (min (s (ix2 r 0))) ?_
  refine (shapeCast_a_a1_apply _ _ r 0).trans ?_
  refine (multiReduction_minimumf_row _ _ _ _ r).trans ?_
  exact congrArg (fun f => (Finset.univ : Finset (Fin 256)).inf f) (funext fun q => select_and_ne _ _ _ _ _)

/-- Row `r`'s running greatest squared distance to a negative after a column tile: the carried value and the tile's masked
    squared distances, a column with the row's label counted as `-∞`. -/
theorem pay2_apply (v22 : FVec Ideal S4096x256 .f32) (v29 : IVec S4096x256 1) (s : Vec Ideal S4096x1 .f32)
    (r : Fin 4096) :
    k0_pay2 (F := Ideal) v22 v29 s (ix2 r (0 : Fin 1))
      = max (s (ix2 r 0)) ((Finset.univ : Finset (Fin 256)).sup fun q =>
          if v29 (ix2 r q) = 1#1 then ninf else v22 (ix2 r q)) := by
  unfold k0_pay2
  refine (congrFun (shapeCast_self _ _) _).trans ?_
  show max (s (ix2 r 0)) _ = _
  refine congrArg (max (s (ix2 r 0))) ?_
  refine (shapeCast_a_a1_apply _ _ r 0).trans ?_
  refine (multiReduction_maximumf_row _ _ _ _ r).trans ?_
  rfl

/-! ## @main's tail: the mean over the rows -/

/-- The sum over both axes of an `[8192, 1]` array from zero, divided by the row count, is the mean of its rows. -/
theorem tail_apply (y : FVec Ideal S8192x1 .f32) :
    Host.divf (F := Ideal)
        (Host.reduceAdd (F := Ideal) y (constant (F := Ideal) S_ .f32 0x00000000#32) reducesTo_S8192x1_S_d0_1 h_S_)
        (constant (F := Ideal) S_ .f32 0x46000000#32)
      = fun _ => mean (fun r : Fin 8192 => y (ix2 r 0)) := by
  funext j
  show Ideal.div (Ideal.hostReduceAdd reducesTo_S8192x1_S_d0_1 y zero j) count = _
  unfold mean
  refine congrArg (fun t => Ideal.div t count) ?_
  refine (Ideal.hostReduceAdd_total _ (fun b => b.elim0) y zero j).trans ?_
  refine congrArg (fun t => zero + t) ?_
  refine (sum_idx2 y).trans ?_
  exact Finset.sum_congr rfl fun a _ => Fin.sum_univ_one _

end Cert.KernelIdeal.Pay

end
-- ==== Proof.SpecLaw.lean ====
/-
  Laws of the specification: the values of its float literals, the agreement of its two spellings of the row loss,
  and the folding of an extremum over all columns into extrema over consecutive tiles of 256 columns.
-/
import proofs.«151648_j33449205301316_2_alg».proof.Proof.Spec

noncomputable section

namespace Cert.MarginSpec

open Idealize.ShloMosaic

/-! ### The literals -/

theorem zero_eq : zero = 0 := by simp [zero, Ideal.ofBits, Ideal.ieee]
theorem pinf_eq : pinf = ⊤ := by simp [pinf, Ideal.ofBits, Ideal.ieee]
theorem ninf_eq : ninf = ⊥ := by simp [ninf, Ideal.ofBits, Ideal.ieee]
theorem one_eq : one = 1 := by simp [one, Ideal.ofBits, Ideal.ieee, -EReal.coe_mul]; norm_num
theorem two_eq : two = 2 := by
  simp [two, Ideal.ofBits, Ideal.ieee, -EReal.coe_mul]; norm_num; first | rfl | norm_cast
theorem count_eq : count = ((8192 : ℝ) : EReal) := by
  simp [count, Ideal.ofBits, Ideal.ieee, -EReal.coe_mul]; norm_num

/-! ### Folding an extremum over the columns tile by tile -/

/-- The columns below `n`. -/
def colsBelow (n : ℕ) : Finset (Fin 8192) := Finset.univ.filter (fun c => c.val < n)

theorem colsBelow_zero : colsBelow 0 = ∅ := by simp [colsBelow]

theorem colsBelow_all : colsBelow 8192 = Finset.univ := by
  ext c; simp [colsBelow]

/-- The columns below the end of tile `j` are those below its start together with the 256 columns of the tile. -/
theorem colsBelow_succ (j : ℕ) (hj : j < 32) :
    colsBelow (256 * (j + 1)) = colsBelow (256 * j) ∪
      Finset.univ.image (fun q : Fin 256 => (⟨256 * j + q.val, by omega⟩ : Fin 8192)) := by
  ext c
  simp only [colsBelow, Finset.mem_union, Finset.mem_filter, Finset.mem_univ, true_and, Finset.mem_image]
  constructor
  · intro h
    by_cases hc : c.val < 256 * j
    · exact Or.inl hc
    · refine Or.inr ⟨⟨c.val - 256 * j, by omega⟩, ?_⟩
      apply Fin.ext
      show 256 * j + (c.val - 256 * j) = c.val
      omega
  · rintro (h | ⟨q, rfl⟩)
    · omega
    · show 256 * j + q.val < 256 * (j + 1)
      omega

theorem inf_colsBelow_succ (f : Fin 8192 → EReal) (j : ℕ) (hj : j < 32) :
    (colsBelow (256 * (j + 1))).inf f = min ((colsBelow (256 * j)).inf f)
      ((Finset.univ : Finset (Fin 256)).inf fun q => f ⟨256 * j + q.val, by omega⟩) := by
  rw [colsBelow_succ j hj, Finset.inf_union, Finset.inf_image]
  rfl

theorem sup_colsBelow_succ (f : Fin 8192 → EReal) (j : ℕ) (hj : j < 32) :
    (colsBelow (256 * (j + 1))).sup f = max ((colsBelow (256 * j)).sup f)
      ((Finset.univ : Finset (Fin 256)).sup fun q => f ⟨256 * j + q.val, by omega⟩) := by
  rw [colsBelow_succ j hj, Finset.sup_union, Finset.sup_image]
  rfl

theorem inf_colsBelow_zero (f : Fin 8192 → EReal) : (colsBelow 0).inf f = ⊤ := by
  rw [colsBelow_zero, Finset.inf_empty]

theorem sup_colsBelow_zero (f : Fin 8192 → EReal) : (colsBelow 0).sup f = ⊥ := by
  rw [colsBelow_zero, Finset.sup_empty]

/-! ### The two spellings of the row loss agree -/

/-- The ideal square root is monotone on the whole extended line: everything below zero goes to `⊥`. -/
theorem sqrt_mono : Monotone Ideal.sqrt := by
  intro a b h
  induction a using EReal.rec with
  | bot => simp
  | top =>
    have hb : b = ⊤ := top_le_iff.mp h
    rw [hb]
  | coe r =>
    induction b using EReal.rec with
    | bot => exact absurd h (by simp)
    | top => simp
    | coe s =>
      have hrs : r ≤ s := EReal.coe_le_coe_iff.mp h
      rw [Ideal.sqrt_coe, Ideal.sqrt_coe]
      by_cases hr : r < 0
      · simp [hr]
      · have hs : ¬ s < 0 := not_lt.mpr (le_trans (not_lt.mp hr) hrs)
        rw [if_neg hr, if_neg hs]
        exact EReal.coe_le_coe_iff.mpr (Real.sqrt_le_sqrt hrs)

theorem sqrt_zero : Ideal.sqrt 0 = 0 := by
  show Ideal.sqrt ((0 : ℝ) : EReal) = 0
  rw [Ideal.sqrt_coe]; simp

/-- Below zero the ideal square root is `⊥`. -/
theorem sqrt_of_neg {a : EReal} (h : a < 0) : Ideal.sqrt a = ⊥ := by
  induction a using EReal.rec with
  | bot => rfl
  | top => exact absurd h (by simp)
  | coe r =>
    have hr : r < 0 := by exact_mod_cast h
    rw [Ideal.sqrt_coe, if_pos hr]

/-- The square root commutes with a finite infimum: it is monotone and keeps `⊤`. -/
theorem sqrt_inf {ι : Type*} (s : Finset ι) (f : ι → EReal) :
    Ideal.sqrt (s.inf f) = s.inf (fun i => Ideal.sqrt (f i)) :=
  Finset.apply_inf_eq_inf_comp_of_linearOrder Ideal.sqrt sqrt_mono Ideal.sqrt_top

/-- The square root commutes with a finite supremum: it is monotone and keeps `⊥`. -/
theorem sqrt_sup {ι : Type*} (s : Finset ι) (f : ι → EReal) :
    Ideal.sqrt (s.sup f) = s.sup (fun i => Ideal.sqrt (f i)) :=
  Finset.apply_sup_eq_sup_comp_of_linearOrder Ideal.sqrt sqrt_mono Ideal.sqrt_bot

variable (x : Fin 8192 → Fin 128 → EReal) (lab : Fin 8192 → BitVec 32)

/-- A squared distance is clamped at zero, so it is never negative. -/
theorem dist2_nonneg (r c : Fin 8192) : 0 ≤ dist2 x r c := by
  have h : zero ≤ dist2 x r c := le_max_right _ _
  rwa [zero_eq] at h

/-- The distance is the square root of the squared distance (the square root of zero is zero). -/
theorem dist_eq (r c : Fin 8192) : dist x r c = Ideal.sqrt (dist2 x r c) := by
  have hd := dist2_nonneg x r c
  unfold dist
  rw [zero_eq]
  generalize dist2 x r c = d at hd ⊢
  by_cases h : 0 < d
  · rw [if_pos h, if_pos h]
  · have hd0 : d = 0 := le_antisymm (not_lt.mp h) hd
    rw [if_neg h, hd0, sqrt_zero]

theorem posD_eq (r c : Fin 8192) : posD x lab r c = Ideal.sqrt (posSq x lab r c) := by
  unfold posD posSq
  split_ifs
  · exact dist_eq x r c
  · rw [pinf_eq, Ideal.sqrt_top]

theorem negD_eq (r c : Fin 8192) : negD x lab r c = Ideal.sqrt (negSq x lab r c) := by
  unfold negD negSq
  by_cases h : lab r = lab c
  · rw [if_neg (not_not.mpr h), if_pos h, ninf_eq, Ideal.sqrt_bot]
  · rw [if_pos h, if_neg h]; exact dist_eq x r c

/-- Every candidate positive is a squared distance or `⊤`, so their infimum is not negative. -/
theorem minPosSq_nonneg (r : Fin 8192) : 0 ≤ minPosSq x lab r := by
  unfold minPosSq
  refine Finset.le_inf (fun c _ => ?_)
  unfold posSq
  split_ifs
  · exact dist2_nonneg x r c
  · rw [pinf_eq]; exact le_top

/-- The least distance to a positive is the square root of the least squared distance. -/
theorem inf_posD_eq (r : Fin 8192) :
    Finset.univ.inf (posD x lab r) = Ideal.sqrt (minPosSq x lab r) := by
  rw [minPosSq, sqrt_inf]
  exact Finset.inf_congr rfl (fun c _ => posD_eq x lab r c)

/-- The greatest distance to a negative is the square root of the greatest squared distance
    (`⊥` when the row has no negative). -/
theorem sup_negD_eq (r : Fin 8192) :
    Finset.univ.sup (negD x lab r) = Ideal.sqrt (maxNegSq x lab r) := by
  rw [maxNegSq, sqrt_sup]
  exact Finset.sup_congr rfl (fun c _ => negD_eq x lab r c)

/-- The two spellings of the row loss agree: the square root, monotone and keeping `⊤` and `⊥`, commutes
    with both extrema; the least squared distance is not negative, and a greatest squared distance below zero
    can only be `⊥`, whose square root is `⊥` again. -/
theorem hingeSq_eq_hinge (x : Fin 8192 → Fin 128 → EReal) (lab : Fin 8192 → BitVec 32) (r : Fin 8192) :
    hingeSq x lab r = hinge x lab r := by
  have hA : Ideal.sqrt (max (minPosSq x lab r) zero) = Finset.univ.inf (posD x lab r) := by
    rw [zero_eq, max_eq_left (minPosSq_nonneg x lab r), inf_posD_eq]
  have hB : (if zero ≤ maxNegSq x lab r then Ideal.sqrt (max (maxNegSq x lab r) zero) else ninf)
      = Finset.univ.sup (negD x lab r) := by
    rw [sup_negD_eq, zero_eq, ninf_eq]
    by_cases h : 0 ≤ maxNegSq x lab r
    · rw [if_pos h, max_eq_left h]
    · rw [if_neg h]; exact (sqrt_of_neg (not_le.mp h)).symm
  unfold hingeSq hingeOf hinge
  rw [hA, hB]

end Cert.MarginSpec

end
-- ==== Proof.Blocks.lean ====
/-
  The blocks the kernel's windows read, at an index: window 0 (and 2) is row block `t / 32` of the embeddings (of the
  labels as a column), window 1 (and 3) is column tile `t % 32`, as rows of the embeddings (as columns of the labels
  as a row); and the output array after the region, from what the last column tile of each row block writes back.
-/
import proofs.«151648_j33449205301316_2_alg».proof.Proof.KernelIdeal.Entry
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-- The grid has 64 points. -/
theorem point_lt (t : Fin cfg0.N) : t.val < 64 := by
  have h := t.isLt
  have hN : cfg0.N = 64 := N_0
  omega

/-- The windows' block indices at a point, decided over the grid: the row block `t / 32` or the column tile `t % 32`. -/
theorem index0 : ∀ t : Fin cfg0.N, win0_0.index t 0 = t.val / 32 ∧ win0_0.index t 1 = 0 :=
  (by decide +kernel : ∀ t : Fin grid0.N, win0_0.index t 0 = t.val / 32 ∧ win0_0.index t 1 = 0)
theorem index1 : ∀ t : Fin cfg0.N, win0_1.index t 0 = t.val % 32 ∧ win0_1.index t 1 = 0 :=
  (by decide +kernel : ∀ t : Fin grid0.N, win0_1.index t 0 = t.val % 32 ∧ win0_1.index t 1 = 0)
theorem index2 : ∀ t : Fin cfg0.N, win0_2.index t 0 = t.val / 32 ∧ win0_2.index t 1 = 0 :=
  (by decide +kernel : ∀ t : Fin grid0.N, win0_2.index t 0 = t.val / 32 ∧ win0_2.index t 1 = 0)
theorem index3 : ∀ t : Fin cfg0.N, win0_3.index t 0 = 0 ∧ win0_3.index t 1 = t.val % 32 :=
  (by decide +kernel : ∀ t : Fin grid0.N, win0_3.index t 0 = 0 ∧ win0_3.index t 1 = t.val % 32)
theorem index4 : ∀ t : Fin cfg0.N, win0_4.index t 0 = t.val / 32 ∧ win0_4.index t 1 = 0 :=
  (by decide +kernel : ∀ t : Fin grid0.N, win0_4.index t 0 = t.val / 32 ∧ win0_4.index t 1 = 0)

/-- No operation before the region writes the embeddings. -/
theorem V_arg0 (c : Dev nD) : V m c main_arg0 = m ((c : Thread nD τ).loc main_arg0) := by
  dsimp only [V, W1, hostOps0]; after_results

/-- The labels as a column are the first reshape of the labels. -/
theorem V_v0 (c : Dev nD) : (V m c main_v0 : S8192x1.Idx → BitVec 32)
    = shapeCast S8192x1 (m ((c : Thread nD τ).loc main_arg1)) shapeCasts_S8192_S8192x1 := by
  dsimp only [V, W1, hostOps0]; after_results; rfl

/-- The labels as a row are the second reshape of the labels. -/
theorem V_v1 (c : Dev nD) : (V m c main_v1 : S1x8192.Idx → BitVec 32)
    = shapeCast S1x8192 (m ((c : Thread nD τ).loc main_arg1)) shapeCasts_S8192_S1x8192 := by
  dsimp only [V, W1, hostOps0]; after_results; rfl

/-- Window 0 at point `t` is rows `4096 (t / 32) + r` of the embeddings. -/
theorem iblk0_apply (c : Dev nD) (t : Fin cfg0.N) (r : Fin 4096) (k : Fin 128) :
    (iblk m c 0 t : Vec F S4096x128 .f32) (ix2 r k)
      = m ((c : Thread nD τ).loc main_arg0) (ix2 ⟨4096 * (t.val / 32) + r.val, by have := point_lt t; omega⟩ k) := by
  unfold iblk
  rw [View.read_apply]
  show V m c main_arg0 _ = _
  rw [V_arg0]
  congr 1
  funext a
  apply Fin.ext
  match a with
  | ⟨0, _⟩ => show win0_0.index t 0 * 4096 + 1 * r.val = 4096 * (t.val / 32) + r.val; rw [(index0 t).1]; omega
  | ⟨1, _⟩ => show win0_0.index t 1 * 128 + 1 * k.val = k.val; rw [(index0 t).2]; omega

/-- Window 1 at point `t` is rows `256 (t % 32) + q` of the embeddings. -/
theorem iblk1_apply (c : Dev nD) (t : Fin cfg0.N) (q : Fin 256) (k : Fin 128) :
    (iblk m c 1 t : Vec F S256x128 .f32) (ix2 q k)
      = m ((c : Thread nD τ).loc main_arg0) (ix2 ⟨256 * (t.val % 32) + q.val, by omega⟩ k) := by
  unfold iblk
  rw [View.read_apply]
  show V m c main_arg0 _ = _
  rw [V_arg0]
  congr 1
  funext a
  apply Fin.ext
  match a with
  | ⟨0, _⟩ => show win0_1.index t 0 * 256 + 1 * q.val = 256 * (t.val % 32) + q.val; rw [(index1 t).1]; omega
  | ⟨1, _⟩ => show win0_1.index t 1 * 128 + 1 * k.val = k.val; rw [(index1 t).2]; omega

/-- Window 2 at point `t` is the labels of rows `4096 (t / 32) + r`. -/
theorem iblk2_apply (c : Dev nD) (t : Fin cfg0.N) (r : Fin 4096) :
    (iblk m c 2 t : Vec F S4096x1 .i32) (ix2 r 0)
      = m ((c : Thread nD τ).loc main_arg1) (ix1 ⟨4096 * (t.val / 32) + r.val, by have := point_lt t; omega⟩) := by
  unfold iblk
  rw [View.read_apply]
  show V m c main_v0 _ = _
  rw [V_v0]
  refine shapeCast_apply _ _ _ _ ?_
  rw [Shape.rowMajor_val_two]
  refine (Shape.rowMajor_val_one (d := ![8192]) _).trans ?_
  show 4096 * (t.val / 32) + r.val = (win0_2.index t 0 * 4096 + 1 * r.val) * 1 + (win0_2.index t 1 * 1 + 1 * 0)
  rw [(index2 t).1, (index2 t).2]; omega

/-- Window 3 at point `t` is the labels of columns `256 (t % 32) + q`. -/
theorem iblk3_apply (c : Dev nD) (t : Fin cfg0.N) (q : Fin 256) :
    (iblk m c 3 t : Vec F S1x256 .i32) (ix2 0 q)
      = m ((c : Thread nD τ).loc main_arg1) (ix1 ⟨256 * (t.val % 32) + q.val, by omega⟩) := by
  unfold iblk
  rw [View.read_apply]
  show V m c main_v1 _ = _
  rw [V_v1]
  refine shapeCast_apply _ _ _ _ ?_
  rw [Shape.rowMajor_val_two]
  refine (Shape.rowMajor_val_one (d := ![8192]) _).trans ?_
  show 256 * (t.val % 32) + q.val = (win0_3.index t 0 * 1 + 1 * 0) * 8192 + (win0_3.index t 1 * 256 + 1 * q.val)
  rw [(index3 t).1, (index3 t).2]; omega

/-- The output array after the region. Row `R` is written back once, by the last column tile of its row block (point
    `32 (R / 4096) + 31`); if what the body leaves in the staging buffer there is `G` at the block's rows, the array
    ends holding `G`. -/
theorem arrAt4_eq (c : Dev nD) (dat : Dat τ (Elt F) Unit ℕ (UR sig nD τ) ℕ cfg0 c) (G : Fin 8192 → F .f32)
    (h : ∀ (t : Fin cfg0.N), t.val % 32 = 31 → ∀ r : Fin 4096,
      dat.after 4 t (ix2 r 0) = G ⟨4096 * (t.val / 32) + r.val, by have := point_lt t; omega⟩) :
    dat.arrAt 4 cfg0.N = (fun y => G ⟨(y 0).val, idx2_lt0 y⟩ : S8192x1.Idx → F .f32) := by
  refine dat.arrAt_eq_of_cover 4 (fun y => G ⟨(y 0).val, idx2_lt0 y⟩ : S8192x1.Idx → F .f32) ?_ ?_
  · intro t hf
    have h31 : t.val % 32 = 31 := (flush0_4 t).mp hf
    show (cfg0.win 4).cut (grid0.coords t) (dat.after 4 t) = _
    funext j
    obtain ⟨r, u, rfl⟩ : ∃ (r : Fin 4096) (u : Fin 1), j = ix2 r u := ⟨j 0, j 1, eq_ix2 j⟩
    obtain rfl : u = 0 := Subsingleton.elim _ _
    rw [View.read_apply]
    show dat.after 4 t (ix2 r 0) = G ⟨(((cfg0.win 4).blk t).view.emb (ix2 r 0) 0).val, _⟩
    rw [h t h31 r]
    congr 1
    apply Fin.ext
    show 4096 * (t.val / 32) + r.val = win0_4.index t 0 * 4096 + 1 * r.val
    rw [(index4 t).1]; omega
  · intro i
    have hi0 : (i 0).val < 8192 := idx2_lt0 i
    have hi1 : (i 1).val < 1 := idx2_lt1 i
    have hN : cfg0.N = 64 := N_0
    let T : Fin cfg0.N := ⟨32 * ((i 0).val / 4096) + 31, by omega⟩
    have hT : T.val = 32 * ((i 0).val / 4096) + 31 := rfl
    obtain ⟨e0, e1⟩ := index4 T
    rw [hT] at e0
    refine ⟨T, (flush0_4 T).mpr (by rw [hT]; omega), ?_⟩
    show i ∈ ((View.whole main_v2).slice (win0_4.rect T)).set
    rw [View.set_slice_whole, Rect.mem_set_unit]
    intro a
    match a with
    | ⟨0, _⟩ =>
      show win0_4.index T 0 * 4096 ≤ (i 0).val ∧ (i 0).val < win0_4.index T 0 * 4096 + 4096
      rw [e0]; omega
    | ⟨1, _⟩ =>
      show win0_4.index T 1 * 1 ≤ (i 1).val ∧ (i 1).val < win0_4.index T 1 * 1 + 1
      rw [e1]; omega

end Cert.KernelIdeal.Blocks

end
-- ==== Proof.KernelValue.lean ====
/-
  The kernel's result array, as values at the ideal instance.

  Write `x r k` for the embeddings and `lab r` for the labels as launched. At grid point `t` (row block `t / 32`, column
  tile `t % 32`) the body folds, for every row `R = 4096·(t/32) + r` of the row block, the candidates of the columns
  `C = 256·(t%32) + q` of the tile into the two running extrema. So after point `t` scratch 0 holds, at row `r`, the least of
  `posSq x lab R C` over the columns `C < 256·(t%32 + 1)`, and scratch 1 the greatest of `negSq x lab R C` over the same
  columns (induction on the point: a first column tile starts from ⊤ and ⊥). At a last column tile the columns are all
  of them, and the body writes `hingeSq x lab R` for every row of the block; the write-backs of the two row blocks cover
  the result array, which therefore holds `hingeSq x lab R` at row `R`.
-/
import proofs.«151648_j33449205301316_2_alg».proof.Proof.Pieces
import proofs.«151648_j33449205301316_2_alg».proof.Proof.PayTile
import proofs.«151648_j33449205301316_2_alg».proof.Proof.PayFold
import proofs.«151648_j33449205301316_2_alg».proof.Proof.SpecLaw
import proofs.«151648_j33449205301316_2_alg».proof.Proof.Blocks

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Pay Cert.KernelIdeal.Blocks Cert.MarginSpec

/-! ## One tile's candidates, over any blocks that read the arrays at the tile's rows and columns -/

section Tile

variable (x0 : Vec Ideal S4096x128 .f32) (x1 : Vec Ideal S256x128 .f32) (l0 : Vec Ideal S4096x1 .i32) (l1 : Vec Ideal S1x256 .i32)
  (i : grid0.Coords) (x : Fin 8192 → Fin 128 → EReal) (lab : Fin 8192 → BitVec 32)

/-- The tile's clamped squared distance at `(r, q)` is the squared distance of the rows the two blocks hold there. -/
theorem tile_dist2 (R C : Fin 8192) (r : Fin 4096) (q : Fin 256)
    (h0 : ∀ k, x0 (ix2 r k) = x R k) (h1 : ∀ k, x1 (ix2 q k) = x C k) :
    k0_pay6 (F := Ideal) x0 x1 (ix2 r q) = dist2 x R C := by
  rw [pay6_apply]
  simp only [h0, h1]
  rfl

/-- The candidate positive the body forms at `(r, q)`. -/
theorem cand_pos (R C : Fin 8192) (r : Fin 4096) (q : Fin 256)
    (h0 : ∀ k, x0 (ix2 r k) = x R k) (h1 : ∀ k, x1 (ix2 q k) = x C k) (h2 : l0 (ix2 r 0) = lab R) (h3 : l1 (ix2 0 q) = lab C)
    (hd : (i 0).val * 4096 + r.val = (i 1).val * 256 + q.val ↔ R = C) :
    (if k0_pay7 (F := Ideal) l0 l1 (ix2 r q) = 1#1 ∧ k0_pay8 i (ix2 r q) ≠ k0_pay9 i (ix2 r q) then k0_pay6 (F := Ideal) x0 x1 (ix2 r q) else pinf)
      = posSq x lab R C := by
  have h7 : k0_pay7 (F := Ideal) l0 l1 (ix2 r q) = 1#1 ↔ lab R = lab C := by rw [pay7_eq_one_iff, h2, h3]
  have h89 : k0_pay8 i (ix2 r q) = k0_pay9 i (ix2 r q) ↔ R = C := (diag_iff i r q).trans hd
  rw [tile_dist2 x0 x1 x R C r q h0 h1]
  unfold posSq
  exact if_congr (and_congr h7 (not_congr h89)) rfl rfl

/-- The candidate negative the body forms at `(r, q)`. -/
theorem cand_neg (R C : Fin 8192) (r : Fin 4096) (q : Fin 256)
    (h0 : ∀ k, x0 (ix2 r k) = x R k) (h1 : ∀ k, x1 (ix2 q k) = x C k) (h2 : l0 (ix2 r 0) = lab R) (h3 : l1 (ix2 0 q) = lab C) :
    (if k0_pay7 (F := Ideal) l0 l1 (ix2 r q) = 1#1 then ninf else k0_pay6 (F := Ideal) x0 x1 (ix2 r q)) = negSq x lab R C := by
  have h7 : k0_pay7 (F := Ideal) l0 l1 (ix2 r q) = 1#1 ↔ lab R = lab C := by rw [pay7_eq_one_iff, h2, h3]
  rw [tile_dist2 x0 x1 x R C r q h0 h1]
  unfold negSq
  exact if_congr h7 rfl rfl

/-- One tile folded into a running least: the least of the old value and the tile's candidate positives. -/
theorem fold_pos (s : Vec Ideal S4096x1 .f32) (R : Fin 8192) (Cq : Fin 256 → Fin 8192) (r : Fin 4096)
    (h0 : ∀ k, x0 (ix2 r k) = x R k) (h1 : ∀ q k, x1 (ix2 q k) = x (Cq q) k) (h2 : l0 (ix2 r 0) = lab R) (h3 : ∀ q, l1 (ix2 0 q) = lab (Cq q))
    (hd : ∀ q, (i 0).val * 4096 + r.val = (i 1).val * 256 + q.val ↔ R = Cq q) :
    k0_pay1 (F := Ideal) (k0_pay6 x0 x1) (k0_pay7 l0 l1) (k0_pay8 i) (k0_pay9 i) s (ix2 r 0)
      = min (s (ix2 r 0)) ((Finset.univ : Finset (Fin 256)).inf fun q => posSq x lab R (Cq q)) := by
  rw [pay1_apply]
  exact congrArg (min _) (Finset.inf_congr rfl fun q _ => cand_pos x0 x1 l0 l1 i x lab R (Cq q) r q h0 (h1 q) h2 (h3 q) (hd q))

/-- One tile folded into a running greatest. -/
theorem fold_neg (s : Vec Ideal S4096x1 .f32) (R : Fin 8192) (Cq : Fin 256 → Fin 8192) (r : Fin 4096)
    (h0 : ∀ k, x0 (ix2 r k) = x R k) (h1 : ∀ q k, x1 (ix2 q k) = x (Cq q) k) (h2 : l0 (ix2 r 0) = lab R) (h3 : ∀ q, l1 (ix2 0 q) = lab (Cq q)) :
    k0_pay2 (F := Ideal) (k0_pay6 x0 x1) (k0_pay7 l0 l1) s (ix2 r 0)
      = max (s (ix2 r 0)) ((Finset.univ : Finset (Fin 256)).sup fun q => negSq x lab R (Cq q)) := by
  rw [pay2_apply]
  exact congrArg (max _) (Finset.sup_congr rfl fun q _ => cand_neg x0 x1 l0 l1 x lab R (Cq q) r q h0 (h1 q) h2 (h3 q))

end Tile

/-! ## Through the grid -/

variable (m : (ℓ : Loc nD τ sig) → Buf (Elt Ideal) ℓ) (c : Dev nD)

/-- The embeddings and the labels as launched, over plain indices. -/
def X : Fin 8192 → Fin 128 → EReal := fun r k => m ((c : Thread nD τ).loc main_arg0) (ix2 r k)
def LAB : Fin 8192 → BitVec 32 := fun r => m ((c : Thread nD τ).loc main_arg1) (ix1 r)

theorem hN : cfg0.N = 64 := N_0

/-- The row of the embeddings that row `r` of point `n`'s row block is, and the column that column `q` of its tile is. -/
def rowOf (n : ℕ) (hn : n < cfg0.N) (r : Fin 4096) : Fin 8192 := ⟨4096 * (n / 32) + r.val, by have := hN; omega⟩
def colOf (n : ℕ) (q : Fin 256) : Fin 8192 := ⟨256 * (n % 32) + q.val, by omega⟩

section Point

variable (t : Fin cfg0.N)

theorem blk0 (r : Fin 4096) (k : Fin 128) : (iblk m c 0 t : Vec Ideal S4096x128 .f32) (ix2 r k) = X m c (rowOf t.val t.isLt r) k :=
  iblk0_apply m c t r k
theorem blk1 (q : Fin 256) (k : Fin 128) : (iblk m c 1 t : Vec Ideal S256x128 .f32) (ix2 q k) = X m c (colOf t.val q) k :=
  iblk1_apply m c t q k
theorem blk2 (r : Fin 4096) : (iblk m c 2 t : Vec Ideal S4096x1 .i32) (ix2 r 0) = LAB m c (rowOf t.val t.isLt r) :=
  iblk2_apply m c t r
theorem blk3 (q : Fin 256) : (iblk m c 3 t : Vec Ideal S1x256 .i32) (ix2 0 q) = LAB m c (colOf t.val q) :=
  iblk3_apply m c t q

theorem diag (r : Fin 4096) (q : Fin 256) :
    ((grid0.coords t) 0).val * 4096 + r.val = ((grid0.coords t) 1).val * 256 + q.val ↔ rowOf t.val t.isLt r = colOf t.val q := by
  rw [coords_0, coords_1]
  constructor
  · intro h; exact Fin.ext (by show 4096 * (t.val / 32) + r.val = 256 * (t.val % 32) + q.val; omega)
  · intro h; have := congrArg Fin.val h; (show (t.val / 32) * 4096 + r.val = (t.val % 32) * 256 + q.val); change 4096 * (t.val / 32) + r.val = 256 * (t.val % 32) + q.val at this; omega

/-- Point `t`'s fold into a running least `s`, at row `r`. -/
theorem point_pos (s : Vec Ideal S4096x1 .f32) (r : Fin 4096) :
    k0_pay1 (F := Ideal) (k0_pay6 (iblk m c 0 t) (iblk m c 1 t)) (k0_pay7 (iblk m c 2 t) (iblk m c 3 t)) (k0_pay8 (grid0.coords t)) (k0_pay9 (grid0.coords t)) s (ix2 r 0)
      = min (s (ix2 r 0)) ((Finset.univ : Finset (Fin 256)).inf fun q => posSq (X m c) (LAB m c) (rowOf t.val t.isLt r) (colOf t.val q)) :=
  fold_pos (iblk m c 0 t) (iblk m c 1 t) (iblk m c 2 t) (iblk m c 3 t) (grid0.coords t) (X m c) (LAB m c) s (rowOf t.val t.isLt r) (colOf t.val) r
    (blk0 m c t r) (blk1 m c t) (blk2 m c t r) (blk3 m c t) (diag t r)

theorem point_neg (s : Vec Ideal S4096x1 .f32) (r : Fin 4096) :
    k0_pay2 (F := Ideal) (k0_pay6 (iblk m c 0 t) (iblk m c 1 t)) (k0_pay7 (iblk m c 2 t) (iblk m c 3 t)) s (ix2 r 0)
      = max (s (ix2 r 0)) ((Finset.univ : Finset (Fin 256)).sup fun q => negSq (X m c) (LAB m c) (rowOf t.val t.isLt r) (colOf t.val q)) :=
  fold_neg (iblk m c 0 t) (iblk m c 1 t) (iblk m c 2 t) (iblk m c 3 t) (X m c) (LAB m c) s (rowOf t.val t.isLt r) (colOf t.val) r
    (blk0 m c t r) (blk1 m c t) (blk2 m c t r) (blk3 m c t)

end Point

/-- The running extrema after position `n`, at row `r` of its row block: the extrema of the candidates over the columns of
    the tiles up to `n`'s. -/
def Inv (n : ℕ) (hn : n < cfg0.N) (r : Fin 4096) : Prop :=
  (outsAt0 m c n hn).2.1 (ix2 r 0) = (colsBelow (256 * (n % 32 + 1))).inf (posSq (X m c) (LAB m c) (rowOf n hn r))
  ∧ (outsAt0 m c n hn).2.2 (ix2 r 0) = (colsBelow (256 * (n % 32 + 1))).sup (negSq (X m c) (LAB m c) (rowOf n hn r))

/-- The tile of position `n` as the new columns of `colsBelow`. -/
theorem tile_inf (f : Fin 8192 → EReal) (n : ℕ) :
    ((Finset.univ : Finset (Fin 256)).inf fun q => f (colOf n q)) = (Finset.univ : Finset (Fin 256)).inf fun q => f ⟨256 * (n % 32) + q.val, by omega⟩ := rfl

theorem inv_first (t : Fin cfg0.N) (h0 : t.val % 32 = 0) (r : Fin 4096) : Inv m c t.val t.isLt r := by
  have h1 : ¬t.val % 32 = 31 := by omega
  unfold Inv
  rw [outsAt0_A m c t h0 h1]
  dsimp only
  rw [sout_A_0, sout_A_1, point_pos, point_neg, pay4_apply, pay5_apply, pinf_eq, ninf_eq, h0]
  rw [inf_colsBelow_succ _ 0 (by omega), sup_colsBelow_succ _ 0 (by omega), inf_colsBelow_zero, sup_colsBelow_zero]
  constructor
  · refine congrArg (min ⊤) (Finset.inf_congr rfl fun q _ => ?_)
    unfold colOf; simp only [h0]
  · refine congrArg (max ⊥) (Finset.sup_congr rfl fun q _ => ?_)
    unfold colOf; simp only [h0]

theorem inv_next (t : Fin cfg0.N) (h0 : ¬t.val % 32 = 0) (r : Fin 4096)
    (ih : Inv m c (t.val - 1) (Nat.lt_of_le_of_lt (Nat.sub_le _ _) t.isLt) r) : Inv m c t.val t.isLt r := by
  have hrow : rowOf (t.val - 1) (Nat.lt_of_le_of_lt (Nat.sub_le _ _) t.isLt) r = rowOf t.val t.isLt r := by
    unfold rowOf; congr 2; omega
  have hcol : (t.val - 1) % 32 + 1 = t.val % 32 := by omega
  obtain ⟨ihp, ihn⟩ := ih
  rw [hrow, hcol] at ihp ihn
  have hj : t.val % 32 < 32 := Nat.mod_lt _ (by decide)
  unfold Inv
  by_cases h1 : t.val % 32 = 31
  · rw [outsAt0_C m c t h0 h1]
    dsimp only
    rw [sout_C_0, sout_C_1, point_pos, point_neg, ihp, ihn, inf_colsBelow_succ _ _ hj, sup_colsBelow_succ _ _ hj]
    exact ⟨rfl, rfl⟩
  · rw [outsAt0_B m c t h0 h1]
    dsimp only
    rw [sout_B_0, sout_B_1, point_pos, point_neg, ihp, ihn, inf_colsBelow_succ _ _ hj, sup_colsBelow_succ _ _ hj]
    exact ⟨rfl, rfl⟩

theorem inv_all (n : ℕ) : ∀ (hn : n < cfg0.N) (r : Fin 4096), Inv m c n hn r := by
  induction n using Nat.strong_induction_on with
  | _ n ih =>
    intro hn r
    by_cases h0 : n % 32 = 0
    · exact inv_first m c ⟨n, hn⟩ h0 r
    · exact inv_next m c ⟨n, hn⟩ h0 r (ih (n - 1) (by omega) _ r)

/-- At a last column tile the body writes the row losses of the finished extrema. -/
theorem out_last (t : Fin cfg0.N) (h1 : t.val % 32 = 31) (r : Fin 4096) :
    (dats m c).after 4 t (ix2 r 0) = hingeSq (X m c) (LAB m c) (rowOf t.val t.isLt r) := by
  have h0 : ¬t.val % 32 = 0 := by omega
  have ih := inv_all m c t.val t.isLt r
  unfold Inv at ih
  rw [outsAt0_C m c t h0 h1] at ih
  dsimp only at ih
  rw [sout_C_0, sout_C_1] at ih
  rw [after0_4, outsAt0_C m c t h0 h1]
  dsimp only
  rw [out_C_4, pay3_apply, ih.1, ih.2, h1]
  show hingeOf ((colsBelow 8192).inf _) ((colsBelow 8192).sup _) = _
  rw [colsBelow_all]
  rfl

/-- The result array of the region: the row loss of every row. -/
theorem final4 : (dats m c).arrAt 4 cfg0.N = (fun y => hingeSq (X m c) (LAB m c) ⟨(y 0).val, idx2_lt0 y⟩ : S8192x1.Idx → EReal) :=
  arrAt4_eq c (dats m c) (hingeSq (X m c) (LAB m c)) fun t h1 r => out_last m c t h1 r

end Cert.KernelIdeal.KValue

end
-- ==== Proof.KernelIdeal.Region.lean ====
/-
  The launch: the run of @main from any proof data for its one kernel region. @main is two reshapes of the labels,
  the region, then four host operations (a constant, the sum of the row losses, a constant, the quotient). The buffer
  contents at each boundary are a fold from the launch memory; the region is entered with every unscoped buffer at the
  contents the reshapes leave and left with the output array at what the write-backs leave, every other buffer as
  entered.

  Windows 0 and 1 read the SAME array (the embeddings), so each holds it at one half of the full share: at the
  region's entry the array's full points-to is dealt into its two halves, and at the exit the halves — which hold the
  same contents, an input array never being written — are joined back.
-/
import proofs.«151648_j33449205301316_2_alg».proof.Proof.KernelIdeal.Entry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

namespace Region

section Data

variable (dat : (c : Dev nD) → Dat τ (Elt F) Unit ℕ (UR sig nD τ) ℕ cfg0 c)

/-! ## The buffer contents at each segment boundary -/

/-- Core `c`'s buffers at launch. -/
abbrev W0 (c : Dev nD) : Valuation τ sig (Elt F) := fun b => m (c, b)

/-- At the region's exit: the output array at what the write-backs leave, every other buffer as the region was
    entered (the inputs are never written). -/
def W2 (c : Dev nD) : Valuation τ sig (Elt F) :=
  Function.update (W1 m c) (Proc.devRef .tc main_v2) ((dat c).arrAt 4 cfg0.N)

theorem W2_out (c : Dev nD) : W2 m dat c (Proc.devRef .tc main_v2) = (dat c).arrAt 4 cfg0.N := by
  unfold W2; exact Function.update_self ..

theorem W2_of_ne (c : Dev nD) (b : Ref sig .tc) (hb : b ≠ main_v2) :
    W2 m dat c (Proc.devRef .tc b) = W1 m c (Proc.devRef .tc b) := by
  unfold W2; exact Function.update_of_ne (StableHlo.devRef_ne_of_ne hb) ..

/-- The same read at a TensorCore reference. -/
abbrev V2 (c : Dev nD) (b : Ref sig .tc) : Buf (Elt F) ((c : Thread nD τ).loc b) := W2 m dat c (Proc.devRef .tc b)

/-- At the return: the four host operations after the region have run. -/
abbrev W3 (c : Dev nD) : Valuation τ sig (Elt F) := StableHlo.after hostOps1 (W2 m dat c)

/-! ## The proof data family and the thread state -/

/-- The prefetched tables' admissible contents: the pipeline has no table. -/
abbrev adm : (p : Fin 1) → (pcfgs (F := F) p).Adm := fun p => (cfgs p).toPCfg_adm
/-- Every pipeline's proof data, by cases on the pipeline: there is one. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers after the region: the generator register at some state (the region's invariant
    takes it in and gives it back) and the core owing nothing, its recorded waits whatever they are. -/
abbrev R (c : Dev nD) : sProp 𝕄 := iprop((∃ r, prngReg c r) ∗ ∃ W, owes (c : Thread nD τ) (0 : CellTallies nD τ sig Unit) W)
/-- The same up to the region: the core's recorded waits are still none, as the launch deals them (the region's
    entry needs them within the proof data's bound, whatever that is). -/
abbrev R₀ (c : Dev nD) : sProp 𝕄 := iprop((∃ r, prngReg c r) ∗ owes (c : Thread nD τ) (0 : CellTallies nD τ sig Unit) ∅)
/-- A stretch of host operations as a segment: over the unscoped references from the contents `W`, `Rc` riding along;
    it leaves those references at `StableHlo.after ops (W c)`. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) (Rc : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W Rc

/-- No host operation of @main allocates. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at
    some state. -/
abbrev Tₙ (c : Dev nD) : sProp 𝕄 := iprop(StableHlo.held (c : Thread nD τ) (Pipeline.ucRefs τ sig) (W3 m dat c) ∗ ∃ r, prngReg c r)

/-! ## The windows' arrays, one by one

The five windows stand on FOUR buffers: windows 0 and 1 both on the embeddings. -/

/-- The distinct buffers behind the windows' arrays, each whole at the full share at contents `A`, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_arg0) ↦{fullShare} A main_arg0) ∗ (((c : Thread nD τ).loc main_v0) ↦{fullShare} A main_v0)
          ∗ (((c : Thread nD τ).loc main_v1) ↦{fullShare} A main_v1) ∗ (((c : Thread nD τ).loc main_v2) ↦{fullShare} A main_v2)) := by
  unfold Pipeline.arrBufs
  exact bigSep_eq_bigSepL_of_eq [main_arg0, main_v0, main_v1, main_v2] (by decide) (by decide) _

/-- The shares the windows hold their arrays at: the two windows on the embeddings one half each, the labels' two
    windows and the output the whole. -/
theorem share_0 (hq : ∀ c w, (dat c).q w = qShare w) (c : Dev nD) : (dat c).share 0 = fullShare.left :=
  (show (dat c).share 0 = (dat c).q 0 from rfl).trans (hq c 0)
theorem share_1 (hq : ∀ c w, (dat c).q w = qShare w) (c : Dev nD) : (dat c).share 1 = fullShare.right :=
  (show (dat c).share 1 = (dat c).q 1 from rfl).trans (hq c 1)
theorem share_2 (hq : ∀ c w, (dat c).q w = qShare w) (c : Dev nD) : (dat c).share 2 = fullShare :=
  (show (dat c).share 2 = (dat c).q 2 from rfl).trans (hq c 2)
theorem share_3 (hq : ∀ c w, (dat c).q w = qShare w) (c : Dev nD) : (dat c).share 3 = fullShare :=
  (show (dat c).share 3 = (dat c).q 3 from rfl).trans (hq c 3)
theorem share_4 (c : Dev nD) : (dat c).share 4 = fullShare := rfl

/-- The windowed arrays at contents `G`, window by window: every array a whole buffer, held at its window's share. -/
theorem arrays0_eq (hq : ∀ c w, (dat c).q w = qShare w) (c : Dev nD)
    (G : (w : Fin cfg0.W) → Buf (Elt F) ((cfg0.win w).arr.view.loc (c : Thread nD τ))) :
    ((dat c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, (arr_whole0 0).set_eq_univ, (arr_whole0 2).set_eq_univ, (arr_whole0 3).set_eq_univ,
    (arr_whole0 4).set_eq_univ, share_0 dat hq, share_1 dat hq, share_2 dat hq, share_3 dat hq, share_4 dat]

/-- THE SHARED ARRAY. The windows' arrays at contents read off one valuation `A` of the buffers ARE the four buffers
    behind them, each whole at `A`: the embeddings' full points-to is its left half (window 0's) beside its right half
    (window 1's), both at the same contents; the other three windows hold their arrays whole. -/
theorem arrays_iff_arrBufs (hq : ∀ c w, (dat c).q w = qShare w) (c : Dev nD)
    (A : (b : Ref sig .tc) → Buf (Elt F) ((c : Thread nD τ).loc b)) :
    ((dat c).arrays (fun w => A (Pipeline.arrRef spec0 w)) : sProp 𝕄)
      ⊣⊢ (Pipeline.arrBufs (Ix := Unit) (Name := ℕ) (U := UR sig nD τ) (Lvl := ℕ) spec0 c A : sProp 𝕄) := by
  rw [arrays0_eq dat hq c, arrBufs0_eq]
  have hs : ((((c : Thread nD τ).loc main_arg0) ↦{fullShare} A main_arg0 : sProp 𝕄))
      ⊣⊢ iprop((((c : Thread nD τ).loc main_arg0) ↦{fullShare.left} A main_arg0) ∗ (((c : Thread nD τ).loc main_arg0) ↦{fullShare.right} A main_arg0)) :=
    pointsTo_share (PosShare.mem_left_op_right fullShare)
  constructor
  · iintro ⟨HaL, HaR, Hv0, Hv1, Hv2⟩
    isplitl [HaL HaR]
    · iapply hs.2
      isplitl [HaL]; · iexact HaL
      iexact HaR
    isplitl [Hv0]; · iexact Hv0
    isplitl [Hv1]; · iexact Hv1
    iexact Hv2
  · iintro ⟨Ha, Hv0, Hv1, Hv2⟩
    ihave Hs := hs.1 $$ Ha
    icases Hs with ⟨HaL, HaR⟩
    isplitl [HaL]; · iexact HaL
    isplitl [HaR]; · iexact HaR
    isplitl [Hv0]; · iexact Hv0
    isplitl [Hv1]; · iexact Hv1
    iexact Hv2

/-- The thread state's buffers at a valuation `W` are the four buffers behind the windows' arrays and the rest. -/
theorem held_split (c : Dev nD) (W : Valuation τ sig (Elt F)) :
    (StableHlo.held (c : Thread nD τ) (Pipeline.ucRefs τ sig) W : sProp 𝕄)
      = iprop((Pipeline.arrBufs (Ix := Unit) (Name := ℕ) (U := UR sig nD τ) (Lvl := ℕ) spec0 c (fun b => W (Proc.devRef .tc b)) : sProp 𝕄)
          ∗ Pipeline.unscopedRest (Ix := Unit) (Name := ℕ) (U := UR sig nD τ) (Lvl := ℕ) spec0 c (fun b => W (Proc.devRef .tc b))) :=
  (Pipeline.unscopedBufs_held c W).symm.trans (Pipeline.unscopedBufs_split₀ cfgs 0 winFacts₀0.arr_unscoped c _)

/-- ENTRY, the arrays' part: every unscoped buffer at the entry contents is the windows' arrays at the proof data's
    entry contents — each read off the entry contents — and the buffers that bypass the region. -/
theorem entry_arrays (hA : ∀ c w, (dat c).A w = V m c (Pipeline.arrRef spec0 w)) (hq : ∀ c w, (dat c).q w = qShare w) (c : Dev nD) :
    (StableHlo.held (c : Thread nD τ) (Pipeline.ucRefs τ sig) (W1 m c) : sProp 𝕄)
      ⊢ iprop((dat c).arrays ((dat c).arrAt · 0)
          ∗ Pipeline.unscopedRest (Ix := Unit) (Name := ℕ) (U := UR sig nD τ) (Lvl := ℕ) spec0 c (V m c)) := by
  rw [held_split, show ((dat c).arrAt · 0) = (fun w => V m c (Pipeline.arrRef spec0 w)) from funext fun w => hA c w]
  exact sep_mono (arrays_iff_arrBufs dat hq c (V m c)).2 .rfl

/-- Every array at the region's exit holds what the exit contents say: an input as entered, the output what the
    write-backs leave. -/
theorem exit_contents (hA : ∀ c w, (dat c).A w = V m c (Pipeline.arrRef spec0 w)) (c : Dev nD) :
    ∀ w, (dat c).arrAt w cfg0.N = V2 m dat c (Pipeline.arrRef spec0 w)
  | 0 => ((dat c).arrAt_in 0 rfl _).trans ((hA c 0).trans (W2_of_ne m dat c main_arg0 (by decide)).symm)
  | 1 => ((dat c).arrAt_in 1 rfl _).trans ((hA c 1).trans (W2_of_ne m dat c main_arg0 (by decide)).symm)
  | 2 => ((dat c).arrAt_in 2 rfl _).trans ((hA c 2).trans (W2_of_ne m dat c main_v0 (by decide)).symm)
  | 3 => ((dat c).arrAt_in 3 rfl _).trans ((hA c 3).trans (W2_of_ne m dat c main_v1 (by decide)).symm)
  | 4 => (W2_out m dat c).symm
  | ⟨_ + 5, h⟩ => absurd h (Nat.not_lt.2 (Nat.le_add_left _ _))

/-- EXIT, the arrays' part: the windows' arrays at their final contents and the buffers that bypassed the region are
    every unscoped buffer at the exit contents. -/
theorem exit_arrays (hA : ∀ c w, (dat c).A w = V m c (Pipeline.arrRef spec0 w)) (hq : ∀ c w, (dat c).q w = qShare w) (c : Dev nD) :
    iprop((dat c).arrays ((dat c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W2 m dat c) : sProp 𝕄) := by
  have hrest : (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (V2 m dat c) := by
    unfold Pipeline.unscopedRest
    exact bigSep_congr fun b hb => by
      rw [show V2 m dat c b = V m c b from W2_of_ne m dat c b fun e =>
        (Finset.mem_sdiff.mp hb).2 (e ▸ Finset.mem_image.mpr ⟨4, Finset.mem_univ _, rfl⟩)]
  rw [held_split, hrest, show ((dat c).arrAt · cfg0.N) = (fun w => V2 m dat c (Pipeline.arrRef spec0 w)) from funext (exit_contents m dat hA c)]
  exact sep_mono (arrays_iff_arrBufs dat hq c (V2 m dat c)).1 .rfl

/-! ## The region as a segment -/

set_option backward.isDefEq.respectTransparency.types false in
/-- THE REGION over the thread state: entered from every unscoped buffer at `W1`, left at `W2`. -/
def reg0 (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W1 m c) ∗ R₀ c)
  post c := iprop(StableHlo.held (c : Thread nD τ) (Pipeline.ucRefs τ sig) (W2 m dat c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit : (StableHlo.held (c : Thread nD τ) (Pipeline.ucRefs τ sig) (W1 m c) : sProp 𝕄)
        ⊢ iprop((pdats dat 0 c).arrays ((pdats dat 0 c).arrAt · 0)
            ∗ Pipeline.unscopedRest (Ix := Unit) (Name := ℕ) (U := UR sig nD τ) (Lvl := ℕ) spec0 c (V m c)) := entry_arrays m dat hA hq c
    have ho : ∀ t, (pdats dat 0 c).owed t = 0 := howed c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      iexists ∅; isplitr; · ipureintro; rw [Finset.coe_empty]; exact Set.empty_subset _
      iexact HO
    isplitl [Hp]; · iexact Hp
    iexact Hrest
  hin c := by
    refine (show _ ⊢ (Pipeline.ΦA spec0 c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin : iprop((pdats dat 0 c).arrays ((pdats dat 0 c).arrAt · cfg0.N)
          ∗ Pipeline.unscopedRest (Ix := Unit) (Name := ℕ) (U := UR sig nD τ) (Lvl := ℕ) spec0 c (V m c))
        ⊢ (StableHlo.held (c : Thread nD τ) (Pipeline.ucRefs τ sig) (W2 m dat c) : sProp 𝕄) := exit_arrays m dat hA hq c
    have ho : ∀ t, (pdats dat 0 c).owed t = 0 := howed c
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## @main as segments, and the launch -/

/-- @main's three segments in order: the two reshapes from the launch memory, the region, the four operations that
    take the mean. -/
abbrev segs (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    List (Pipeline.Seg (pcfgs (F := F)) adm (pdats dat) () defs₀ 𝒱₀ L lv) :=
  [ .host (hseg hostOps0 hostOps0_sub hostOps0_fresh (W0 m) R₀),
    .region (reg0 m dat hA hq howed hbody hin hout),
    .host (hseg hostOps1 hostOps1_sub hostOps1_fresh (W2 m dat) R) ]

/-- @main IS the run of the segments. -/
theorem main_run (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) (c : Dev nD) :
    main (F := F) c = Pipeline.Seg.run (segs m dat hA hq howed hbody hin hout) := (main_chain c).trans (by chain_rfl)

/-! ### What the return's contents are -/

/-- The result is the mean of the output array: the four host operations read off the region's exit contents. -/
theorem W3_main_v4 (c : Dev nD) :
    W3 m dat c (Proc.devRef .tc main_v4)
      = Host.divf (Host.reduceAdd ((dat c).arrAt 4 cfg0.N) (constant S_ .f32 0x00000000#32) reducesTo_S8192x1_S_d0_1 h_S_) (constant S_ .f32 0x46000000#32) := by
  show StableHlo.after hostOps1 _ (Proc.devRef .tc main_v4) = _
  after_results
  rw [W2_out]

/-- The embeddings end as launched: no host operation writes them and the region only reads them. -/
theorem W3_main_arg0 (c : Dev nD) : W3 m dat c (Proc.devRef .tc main_arg0) = m ((c : Thread nD τ).loc main_arg0) := by
  show StableHlo.after hostOps1 _ (Proc.devRef .tc main_arg0) = _
  after_results
  rw [W2_of_ne m dat c main_arg0 (by decide)]
  show StableHlo.after hostOps0 _ (Proc.devRef .tc main_arg0) = _
  after_results
/-- The labels end as launched. -/
theorem W3_main_arg1 (c : Dev nD) : W3 m dat c (Proc.devRef .tc main_arg1) = m ((c : Thread nD τ).loc main_arg1) := by
  show StableHlo.after hostOps1 _ (Proc.devRef .tc main_arg1) = _
  after_results
  rw [W2_of_ne m dat c main_arg1 (by decide)]
  show StableHlo.after hostOps0 _ (Proc.devRef .tc main_arg1) = _
  after_results

end Data

end Region

open Region in
set_option backward.isDefEq.respectTransparency.types false in
/-- THE LAUNCH: from any memory with zero counters, every weakly fair execution of @main on the TensorCores terminates,
    and every final state has the result at the mean of the output array the region leaves and the two arguments as
    launched — from any proof data for the region whose arrays are read off the entry contents, whose two windows on the
    embeddings hold one half each, and whose invariant is the launch's at both ends. -/
theorem run_of (ρ : Dev nD → PrngReg)
    (dat : (c : Dev nD) → Dat τ (Elt F) Unit ℕ (UR sig nD τ) ℕ cfg0 c)
    (hA : ∀ c w, (dat c).A w = V m c (Pipeline.arrRef spec0 w))
    (hq : ∀ c w, (dat c).q w = qShare w)
    (howed : ∀ c t, (dat c).owed t = 0)
    (hbody : ∀ c, BodyObligation (dat c) (defs₀ (F := F)) Variants.none () Set.univ)
    (hin : ∀ c, Pipeline.ΦA spec0 c ⊢ (dat c).Φ 0)
    (hout : ∀ c, (dat c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_v4) = Host.divf (Host.reduceAdd ((dat c).arrAt 4 cfg0.N) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat) () cellOf_inj emb₁ defs₀ 𝒱₀ L lv m ρ main
    (segs m dat hA hq howed hbody hin hout)
    (fun c Q => by rw [main_run m dat hA hq howed hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m dat)
    (hch := ⟨fun _ => .rfl, fun _ => .rfl, fun _ => .rfl, fun c => by
      show iprop(StableHlo.held (c : Thread nD τ) (Pipeline.ucRefs τ sig) (W3 m dat c) ∗ R c)
        ⊢ iprop(Tₙ m dat c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W3 m dat c b)
    (hfin := fun c s' => by
      iintro ⟨⟨Hh, -⟩, HSI⟩
      unfold StableHlo.held
      imodintro
      iapply (pointsTo_read_all (Pipeline.ucRefs τ sig) (fun b => (((c : Thread nD τ)).1, b)) (W3 m dat c) s')
      isplitl [Hh] <;> iassumption)
    (hQ := fun s h c =>
      ⟨(h c _ (mem_uc main_v4 (by decide))).trans (W3_main_v4 m dat c),
       (h c _ (mem_uc main_arg0 (by decide))).trans (W3_main_arg0 m dat c),
       (h c _ (mem_uc main_arg1 (by decide))).trans (W3_main_arg1 m dat c)⟩)

end Cert.KernelIdeal.Hand

end
-- ==== Proof.KernelRun.lean ====
/-
  The idealized kernel's run with its result named: @main's result is the mean of the row losses of the launched
  embeddings and labels — the region's result array holds the row loss of every row (the extrema taken of the squared
  distances), the host operations after the region take the mean, and the row loss is the same whether the square root is
  taken before or after the extrema (the square root is monotone).
-/
import proofs.«151648_j33449205301316_2_alg».proof.Proof.KernelValue
import proofs.«151648_j33449205301316_2_alg».proof.Proof.KernelIdeal.Region

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Pay Cert.MarginSpec

variable (m : (ℓ : Loc nD τ sig) → Buf (Elt Ideal) ℓ) (ρ : Dev nD → PrngReg)

/-- The mean the host operations after the region take of the region's result array is the mean of the row losses. -/
theorem result_eq (c : Dev nD) :
    Host.divf (F := Ideal) (Host.reduceAdd (F := Ideal) ((dats m c).arrAt 4 cfg0.N) (constant (F := Ideal) S_ .f32 0x00000000#32) reducesTo_S8192x1_S_d0_1 h_S_) (constant (F := Ideal) S_ .f32 0x46000000#32)
      = fun _ => mean (hinge (X m c) (LAB m c)) := by
  rw [final4 m c]
  refine (tail_apply _).trans ?_
  funext _
  refine congrArg mean (funext fun r => ?_)
  exact hingeSq_eq_hinge (X m c) (LAB m c) r

/-- Every weakly fair execution of the idealized kernel's @main terminates, with the result at the mean of the row
    losses of the launched arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v4) = (fun _ => mean (hinge (X m c) (LAB m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (result_eq m c), (h c).2⟩)
    (run_of m ρ (dats m) (A_eq m) (fun _ _ => rfl) (fun _ _ => rfl) (body_obligation m) (hin m) (hout m))

end Cert.KernelIdeal.KValue

end
-- ==== Proof.RefValue.lean ====
/-
  The value of the reference program at the ideal instance.

  For embeddings `x : Fin 8192 → Fin 128 → EReal` and labels `lab : Fin 8192 → BitVec 32` (the two argument arrays read by
  coordinates) the reference computes, stage by stage: the squared norms `∑ k, x r k * x r k`; the Gram matrix
  `∑ k, x r k * x c k` (the contraction of `x` with its transpose); the clamped squared distance
  `max (‖x r‖² + ‖x c‖² − 2·⟨x r, x c⟩) 0`; its square root where it is positive and zero elsewhere; the mask of the
  positives (equal labels off the diagonal: the diagonal is where the two index counters agree as 32-bit words, which for
  coordinates below `2 ^ 32` is where the coordinates agree) and of the negatives (different labels); the row minimum of
  the masked distances from `+∞` and the row maximum from `−∞` — a fold of `min` (of `max`) over the column
  coordinate, which is the lattice infimum (supremum) over all columns; the hinge `max (d⁺ − d⁻ + 1) 0`; and the mean
  over the rows. Each stage is read at an index from the stage before, so no full-size array is ever evaluated.
-/
import proofs.«151648_j33449205301316_2_alg».proof.Proof.Gen.ReferenceIdeal.Read
import proofs.«151648_j33449205301316_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words and literals -/

/-- The pattern of `+∞` denotes the top of the extended reals. -/
theorem pinf_top : Ideal.ofBits .f32 0x7F800000#32 = (⊤ : EReal) := by simp [Ideal.ofBits, Ideal.ieee]
/-- The pattern of `−∞` denotes the bottom of the extended reals. -/
theorem ninf_bot : Ideal.ofBits .f32 0xFF800000#32 = (⊥ : EReal) := by simp [Ideal.ofBits, Ideal.ieee]

/-- A select on a one-bit word that is `1` exactly when `P` holds is the `if` on `P`. -/
theorem select_of_iff {α : Type} {b : BitVec 1} {P : Prop} {_ : Decidable P} (h : b = 1#1 ↔ P) (u v : α) :
    Scalar.select b u v = if P then u else v := by
  unfold Scalar.select
  by_cases hp : P
  · rw [if_pos hp]; exact if_pos (h.2 hp)
  · rw [if_neg hp]; exact if_neg (fun hb => hp (h.1 hb))

/-- The ordered "greater than" of extended reals answers `1` exactly when the strict inequality holds. -/
theorem cmp_ogt_iff (u v : EReal) : Ideal.cmp .ogt u v = 1#1 ↔ v < u := by
  unfold Ideal.cmp
  by_cases h : v < u <;> simp [h]

/-- The integer "equal" answers `1` exactly on equal words. -/
theorem cmpi_eq_iff {w : Nat} (u v : BitVec w) : IntOp.cmpi .eq u v = 1#1 ↔ u = v := by
  unfold IntOp.cmpi
  by_cases h : u = v
  · subst h; simp
  · have hb : (u == v) = false := beq_eq_false_iff_ne.mpr h
    simp [hb, h]

/-- The complement of a one-bit word is `1` exactly when the word is not. -/
theorem not_iff (b : BitVec 1) : ~~~b = 1#1 ↔ ¬ b = 1#1 := by
  rcases BitVec.eq_zero_or_eq_one b with h | h <;> subst h <;> decide

/-- The conjunction of two one-bit words is `1` exactly when both are. -/
theorem andi_iff (a b : BitVec 1) : IntOp.andi a b = 1#1 ↔ a = 1#1 ∧ b = 1#1 := by
  rcases BitVec.eq_zero_or_eq_one a with h | h <;> rcases BitVec.eq_zero_or_eq_one b with h' | h' <;> subst h <;> subst h' <;> decide

/-- The row counter plus zero equals the column counter, as 32-bit words, exactly on the diagonal: both coordinates are
    below `2 ^ 32`. -/
theorem diag_iff (r c : Fin 8192) :
    IntOp.cmpi .eq (IntOp.addi (BitVec.ofNat 32 r.val) 0#32) (BitVec.ofNat 32 c.val) = 1#1 ↔ r = c := by
  rw [cmpi_eq_iff]
  unfold IntOp.addi
  rw [BitVec.add_zero]
  constructor
  · intro h
    have h2 := congrArg BitVec.toNat h
    simp only [BitVec.toNat_ofNat] at h2
    have hr := r.isLt
    have hc := c.isLt
    exact Fin.ext (by omega)
  · rintro rfl; rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-! ## The row reductions -/

/-- Over a row, the index a reduction along the columns inserts is the pair of the row and the column. -/
theorem lift_row (h : S8192x8192.Reduces [1] S8192) (r c : Fin 8192) : h.lift (ix1 r) c = ix2 r c := by
  funext a
  match a with
  | ⟨0, _⟩ => rfl
  | ⟨1, _⟩ => rfl

/-- A row minimum from `+∞` is the infimum over the columns: the fold of `min` from the top is the lattice's. -/
theorem reduce_min_row (y : S8192x8192.Idx → EReal) (init : S_.Idx → EReal)
    (hinit : init (Shape.Idx.first h_S_) = ⊤) (r : Fin 8192) :
    Host.reduce (FloatOps.minimumf (F := Ideal) (φ := .f32)) y init reducesTo_S8192x8192_S8192_d1 h_S_ (ix1 r)
      = Finset.univ.inf fun c : Fin 8192 => y (ix2 r c) := by
  have h : S8192x8192.Reduces [1] S8192 := by decide
  rw [Host.reduce_eq_fold_single _ y init reducesTo_S8192x8192_S8192_d1 h h_S_ (ix1 r), hinit]
  have hf : (y ∘ h.lift (ix1 r)) = fun c : Fin 8192 => y (ix2 r c) := funext fun c => congrArg y (lift_row h r c)
  rw [hf]
  rfl

/-- A row maximum from `−∞` is the supremum over the columns. -/
theorem reduce_max_row (y : S8192x8192.Idx → EReal) (init : S_.Idx → EReal)
    (hinit : init (Shape.Idx.first h_S_) = ⊥) (r : Fin 8192) :
    Host.reduce (FloatOps.maximumf (F := Ideal) (φ := .f32)) y init reducesTo_S8192x8192_S8192_d1 h_S_ (ix1 r)
      = Finset.univ.sup fun c : Fin 8192 => y (ix2 r c) := by
  have h : S8192x8192.Reduces [1] S8192 := by decide
  rw [Host.reduce_eq_fold_single _ y init reducesTo_S8192x8192_S8192_d1 h h_S_ (ix1 r), hinit]
  have hf : (y ∘ h.lift (ix1 r)) = fun c : Fin 8192 => y (ix2 r c) := funext fun c => congrArg y (lift_row h r c)
  rw [hf]
  rfl

/-! ## The stages at an index -/

section Stages

variable (a0 : (⟨S8192x128, .f32⟩ : BufTy).Contents (Elt Ideal)) (a1 : (⟨S8192, .i32⟩ : BufTy).Contents (Elt Ideal))

/-- The embeddings by coordinates. -/
abbrev xs : Fin 8192 → Fin 128 → EReal := fun r k => a0 (ix2 r k)
/-- The labels by coordinate. -/
abbrev ls : Fin 8192 → BitVec 32 := fun r => a1 (ix1 r)

/-- The row sums of squares: the initial value is zero. -/
theorem v1_at (r : Fin 8192) : val_main_v1 (F := Ideal) a0 (ix1 r) = MarginSpec.sqn (xs a0) r := by
  rw [val_main_v1_apply, val_main_cst_apply]
  show Ideal.ofBits .f32 0x00000000#32 + _ = _
  rw [Ideal.ofBits_zero_f32, zero_add]
  unfold MarginSpec.sqn
  refine Finset.sum_congr rfl fun k _ => ?_
  rw [val_main_v0_apply]
  have e : idx_main_v1 (ix1 r) k = ix2 r k := funext fun a => by
    match a with
    | ⟨0, _⟩ => rfl
    | ⟨1, _⟩ => rfl
  rw [e]
  rfl

/-- The two broadcasts of the row sums, added. -/
theorem v6_at (r c : Fin 8192) :
    val_main_v6 (F := Ideal) a0 (ix2 r c) = MarginSpec.sqn (xs a0) r + MarginSpec.sqn (xs a0) c := by
  rw [val_main_v6_apply, val_main_v4_apply, val_main_v5_apply, val_main_v2_apply, val_main_v3_apply]
  have e1 : idx_main_v2 (idx_main_v4 (ix2 r c)) = ix1 r := funext fun a => by
    match a with
    | ⟨0, _⟩ => rfl
  have e2 : idx_main_v3 (idx_main_v5 (ix2 r c)) = ix1 c := funext fun a => by
    match a with
    | ⟨0, _⟩ => rfl
  rw [e1, e2, v1_at, v1_at]
  rfl

/-- The contraction of the embeddings with their transpose is the inner product of two rows. -/
theorem v8_at (r c : Fin 8192) : val_main_v8 (F := Ideal) a0 (ix2 r c) = MarginSpec.dotp (xs a0) r c := by
  rw [val_main_v8_apply]
  unfold MarginSpec.dotp
  refine Finset.sum_congr rfl fun k _ => ?_
  rw [val_main_v7_apply]
  have e1 : lidx_main_v8 (ix2 r c) k = ix2 r k := funext fun a => by
    match a with
    | ⟨0, _⟩ => rfl
    | ⟨1, _⟩ => rfl
  have e2 : idx_main_v7 (ridx_main_v8 (ix2 r c) k) = ix2 c k := funext fun a => by
    match a with
    | ⟨0, _⟩ => rfl
    | ⟨1, _⟩ => rfl
  rw [e1, e2]

/-- The clamped squared distance. -/
theorem v13_at (r c : Fin 8192) : val_main_v13 (F := Ideal) a0 (ix2 r c) = MarginSpec.dist2 (xs a0) r c := by
  rw [val_main_v13_apply, val_main_v11_apply, val_main_v10_apply, val_main_v9_apply, val_main_v12_apply,
    val_main_cst_0_apply, val_main_cst_1_apply, v6_at, v8_at]
  rfl

/-- The guarded operand of the square root: the squared distance where it is positive, one elsewhere. -/
theorem v16_at (r c : Fin 8192) :
    val_main_v16 (F := Ideal) a0 (ix2 r c)
      = if MarginSpec.zero < MarginSpec.dist2 (xs a0) r c then MarginSpec.dist2 (xs a0) r c else MarginSpec.one := by
  rw [val_main_v16_apply, val_main_v15_apply, val_main_v14_apply, val_main_cst_2_apply, val_main_call0_v1_apply,
    val_main_call0_v0_apply, val_main_cst_3_apply, v13_at]
  exact select_of_iff (cmp_ogt_iff _ _) _ _

/-- The distance: the square root of a positive squared distance, zero at zero. -/
theorem v20_at (r c : Fin 8192) : val_main_v20 (F := Ideal) a0 (ix2 r c) = MarginSpec.dist (xs a0) r c := by
  rw [val_main_v20_apply, val_main_v18_apply, val_main_v17_apply, val_main_cst_4_apply, val_main_v19_apply, v16_at,
    val_main_call1_v1_apply, val_main_call1_v0_apply, val_main_cst_5_apply, v13_at]
  unfold MarginSpec.dist
  exact select_of_iff (cmp_ogt_iff _ _) _ _

/-- The label comparison. -/
theorem v25_iff (r c : Fin 8192) : val_main_v25 (F := Ideal) a1 (ix2 r c) = 1#1 ↔ ls a1 r = ls a1 c := by
  rw [val_main_v25_apply, val_main_v23_apply, val_main_v24_apply, val_main_v21_apply, val_main_v22_apply]
  have e1 : idx_main_v21 (idx_main_v23 (ix2 r c)) = ix1 r := funext fun a => by
    match a with
    | ⟨0, _⟩ => rfl
  have e2 : idx_main_v22 (idx_main_v24 (ix2 r c)) = ix1 c := funext fun a => by
    match a with
    | ⟨0, _⟩ => rfl
  rw [e1, e2]
  exact cmpi_eq_iff _ _

/-- The diagonal: where the two index counters agree. -/
theorem v30_iff (r c : Fin 8192) : val_main_v30 (F := Ideal) (ix2 r c) = 1#1 ↔ r = c := by
  rw [val_main_v30_apply, val_main_v29_apply, val_main_v26_apply, val_main_v27_apply, val_main_v28_apply,
    val_main_c_apply]
  exact diag_iff r c

/-- The mask of the positives: equal labels, off the diagonal. -/
theorem v32_iff (r c : Fin 8192) :
    val_main_v32 (F := Ideal) a1 (ix2 r c) = 1#1 ↔ (ls a1 r = ls a1 c ∧ r ≠ c) := by
  rw [val_main_v32_apply, andi_iff, val_main_v31_apply, not_iff, v25_iff, v30_iff]

/-- The mask of the negatives: different labels. -/
theorem v33_iff (r c : Fin 8192) : val_main_v33 (F := Ideal) a1 (ix2 r c) = 1#1 ↔ ¬ ls a1 r = ls a1 c := by
  rw [val_main_v33_apply, not_iff, v25_iff]

/-- The distances to the positives, `+∞` elsewhere. -/
theorem v34_at (r c : Fin 8192) :
    val_main_v34 (F := Ideal) a0 a1 (ix2 r c) = MarginSpec.posD (xs a0) (ls a1) r c := by
  rw [val_main_v34_apply, v20_at, val_main_call2_v1_apply, val_main_call2_v0_apply, val_main_cst_6_apply]
  unfold MarginSpec.posD
  exact select_of_iff (v32_iff a1 r c) _ _

/-- The distances to the negatives, `−∞` elsewhere. -/
theorem v36_at (r c : Fin 8192) :
    val_main_v36 (F := Ideal) a0 a1 (ix2 r c) = MarginSpec.negD (xs a0) (ls a1) r c := by
  rw [val_main_v36_apply, v20_at, val_main_call3_v1_apply, val_main_call3_v0_apply, val_main_cst_8_apply]
  unfold MarginSpec.negD
  exact select_of_iff (v33_iff a1 r c) _ _

/-- The least distance to a positive. -/
theorem v35_at (r : Fin 8192) :
    val_main_v35 (F := Ideal) a0 a1 (ix1 r) = Finset.univ.inf (MarginSpec.posD (xs a0) (ls a1) r) := by
  unfold val_main_v35
  refine (reduce_min_row _ _ ((val_main_cst_7_apply _).trans pinf_top) r).trans ?_
  exact congrArg (Finset.inf Finset.univ) (funext fun c => v34_at a0 a1 r c)

/-- The greatest distance to a negative. -/
theorem v37_at (r : Fin 8192) :
    val_main_v37 (F := Ideal) a0 a1 (ix1 r) = Finset.univ.sup (MarginSpec.negD (xs a0) (ls a1) r) := by
  unfold val_main_v37
  refine (reduce_max_row _ _ ((val_main_cst_9_apply _).trans ninf_bot) r).trans ?_
  exact congrArg (Finset.sup Finset.univ) (funext fun c => v36_at a0 a1 r c)

/-- The row loss. -/
theorem v42_at (r : Fin 8192) :
    val_main_v42 (F := Ideal) a0 a1 (ix1 r) = MarginSpec.hinge (xs a0) (ls a1) r := by
  rw [val_main_v42_apply, val_main_v40_apply, val_main_v38_apply, v35_at, v37_at, val_main_v39_apply,
    val_main_cst_10_apply, val_main_v41_apply, val_main_cst_11_apply]
  rfl

/-- The reference's result, as a function of the two argument arrays, is the mean of the row losses. -/
theorem result_eq :
    val_main_v44 (F := Ideal) a0 a1
      = fun _ => MarginSpec.mean (MarginSpec.hinge (fun r k => a0 (ix2 r k)) (fun r => a1 (ix1 r))) := by
  funext i
  rw [val_main_v44_apply, val_main_v43_apply, val_main_cst_12_apply, val_main_cst_13_apply, sum_idx1]
  simp only [v42_at]
  rfl

end Stages

/-! ## The run -/

/-- Every weakly fair execution of the reference terminates with its result at the mean of the row losses of the
    argument arrays it was started with, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v44)
          = (fun _ => MarginSpec.mean (MarginSpec.hinge
              (fun r k => m ((c.tc : Thread Cert.ReferenceIdeal.nD Cert.ReferenceIdeal.τ).loc Cert.ReferenceIdeal.main_arg0) (ix2 r k))
              (fun r => m ((c.tc : Thread Cert.ReferenceIdeal.nD Cert.ReferenceIdeal.τ).loc Cert.ReferenceIdeal.main_arg1) (ix1 r))))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v44_eq m c).trans (result_eq _ _)), (h c).2⟩)
    (Cert.ReferenceIdeal.Value.run (F := Ideal) m ρ)

end Cert.ReferenceIdeal.RefValue

end
-- ==== Proof.lean ====
/-
  The proof of `Cert.Claim`: the three frames, the (trivial) idealization claim, and the equality of the idealized kernel
  and the idealized reference.

  Both idealized programs compute, from embeddings `x` and labels, the mean over the rows `r` of
  `max (d⁺ r − d⁻ r + 1) 0`, `d⁺ r` the least distance from row `r` to another row of its label and `d⁻ r` the greatest
  distance to a row of another label. The reference takes the square root of every squared distance and then the
  extrema; the kernel sweeps the columns tile by tile, keeps the running extrema of the SQUARED distances per row, and
  takes one square root of each at the last tile. The square root is monotone on the extended reals, so it commutes
  with the finite extrema; sums and extrema do not depend on the tiling. No finiteness of the inputs is used.

  The kernel's frame: its region is launched with the embeddings read by two windows at once (the row block and the
  column tile), each holding the array at one half; the body's three kinds of grid point are run once each, on any
  blocks; the region's run is then threaded between the host operations before and after it. The same text proves the
  word-level kernel's frame and the idealized kernel's.
-/
import proofs.«151648_j33449205301316_2_alg».proof.Defs
import proofs.«151648_j33449205301316_2_alg».proof.Proof.Gen.Kernel
import proofs.«151648_j33449205301316_2_alg».proof.Proof.Gen.KernelIdeal
import proofs.«151648_j33449205301316_2_alg».proof.Proof.Gen.ReferenceIdeal
import proofs.«151648_j33449205301316_2_alg».proof.Proof.Gen.Pre_finite_inputs
import proofs.«151648_j33449205301316_2_alg».proof.Proof.Kernel.Region
import proofs.«151648_j33449205301316_2_alg».proof.Proof.Kernel.Body
import proofs.«151648_j33449205301316_2_alg».proof.Proof.KernelRun
import proofs.«151648_j33449205301316_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : @Cert.frame_Kernel Cert.Kernel.Gen.facts Cert.Pre_finite_inputs.Gen.facts := fun m ρ _ =>
  (θ_run (Cert.Kernel.defs (F := Bits)) _ _).mono (fun _ h c => (h c).2)
    (Cert.Kernel.Hand.run_of (F := Bits) m ρ (Cert.Kernel.Hand.dats m) (Cert.Kernel.Hand.A_eq m) (fun _ _ => rfl) (fun _ _ => rfl)
      (Cert.Kernel.Hand.body_obligation m) (Cert.Kernel.Hand.hin m) (Cert.Kernel.Hand.hout m))

/-- So does the idealized kernel. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2) (Cert.KernelIdeal.KValue.run m ρ)

/-- And the idealized reference. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.RefValue.run m ρ)

/-- From memories that agree on the arguments both idealized programs end at the mean of the row losses. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
